-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S2048x1024 : Shape := ⟨2, ![2048, 1024]⟩
abbrev S2048 : Shape := ⟨1, ![2048]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_arg8 : FVec F S1024x1024 .f32) (main_arg9 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  main_v48

def fn_part1 {F : FTy → Type} [FloatOps F] (main_arg4 : FVec F S2048x1024 .f32) (main_arg5 : FVec F S2048 .f32) (main_arg6 : FVec F S1024x1024 .f32) (main_arg7 : FVec F S1024 .f32) (main_arg8 : FVec F S1024x1024 .f32) (main_arg9 : FVec F S1024 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S8192x1024 .f32) (main_arg1 : FVec F S8192x1024 .f32) (main_arg2 : FVec F S2048x1024 .f32) (main_arg3 : FVec F S2048 .f32) (main_arg4 : FVec F S2048x1024 .f32) (main_arg5 : FVec F S2048 .f32) (main_arg6 : FVec F S1024x1024 .f32) (main_arg7 : FVec F S1024 .f32) (main_arg8 : FVec F S1024x1024 .f32) (main_arg9 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_arg8 main_arg9 main_v13 main_v16
-- ==== Kernel.lean ====
abbrev S8192x1024 : Shape := ⟨2, ![8192, 1024]⟩
abbrev S2048x1024 : Shape := ⟨2, ![2048, 1024]⟩
abbrev S2048 : Shape := ⟨1, ![2048]⟩
abbrev S1024x1024 : Shape := ⟨2, ![1024, 1024]⟩
abbrev S1024 : Shape := ⟨1, ![1024]⟩
abbrev S3072x1024 : Shape := ⟨2, ![3072, 1024]⟩
abbrev S3072 : Shape := ⟨1, ![3072]⟩
abbrev S1x3072 : Shape := ⟨2, ![1, 3072]⟩
abbrev S256x1024 : Shape := ⟨2, ![256, 1024]⟩
abbrev S256x3072 : Shape := ⟨2, ![256, 3072]⟩
abbrev S256x2048 : Shape := ⟨2, ![256, 2048]⟩
abbrev S256 : Shape := ⟨1, ![256]⟩
abbrev S256x1 : Shape := ⟨2, ![256, 1]⟩

abbrev nBuf : Space → Nat
  | .hbm => 19
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2048x1024, .f32⟩
  | .hbm, ⟨3, _⟩ => ⟨S2048, .f32⟩
  | .hbm, ⟨4, _⟩ => ⟨S2048x1024, .f32⟩
  | .hbm, ⟨5, _⟩ => ⟨S2048, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S3072x1024, .f32⟩
  | .hbm, ⟨11, _⟩ => ⟨S3072x1024, .bf16⟩
  | .hbm, ⟨12, _⟩ => ⟨S3072x1024, .f32⟩
  | .hbm, ⟨13, _⟩ => ⟨S3072x1024, .bf16⟩
  | .hbm, ⟨14, _⟩ => ⟨S3072, .f32⟩
  | .hbm, ⟨15, _⟩ => ⟨S1x3072, .f32⟩
  | .hbm, ⟨16, _⟩ => ⟨S3072, .f32⟩
  | .hbm, ⟨17, _⟩ => ⟨S1x3072, .f32⟩
  | .hbm, ⟨18, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S3072x1024, .bf16⟩
  | .local _ .vmem, ⟨5, _⟩ => ⟨S1x3072, .f32⟩
  | .local _ .vmem, ⟨6, _⟩ => ⟨S3072x1024, .bf16⟩
  | .local _ .vmem, ⟨7, _⟩ => ⟨S1x3072, .f32⟩
  | .local _ .vmem, ⟨8, _⟩ => ⟨S256x1024, .f32⟩
  | .local _ .vmem, ⟨9, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3072x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S2048x1024_S1024x1024_S3072x1024_d0 : Shape.Concatenates [S2048x1024, S1024x1024] S3072x1024 0
  bitsLt_bf16_f32 : FTy.bits .bf16 < FTy.bits .f32
  concatenates_S2048_S1024_S3072_d0 : Shape.Concatenates [S2048, S1024] S3072 0
  shapeCasts_S3072_S1x3072 : S3072.ShapeCasts S1x3072
  inb_S256x1024_S256x1024_0_0 : ∀ a, (![0, 0] : Fin 2 → Nat) a + S256x1024.size a ≤ S256x1024.size a
  h_S256x1024 : 0 < S256x1024.numel
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S256x3072 : S1x3072.Broadcasts S256x3072
  slices_S256x3072_o0_0_S256x2048 : S256x3072.Slices ![0, 0] S256x2048
  slices_S256x3072_o0_2048_S256x1024 : S256x3072.Slices ![0, 2048] S256x1024
  reduces_S256x2048_S256 : S256x2048.Reduces [1] S256
  shapeCasts_S256_S256x1 : S256.ShapeCasts S256x1
  broadcasts_S256x1_S256x2048 : S256x1.Broadcasts S256x2048
  slices_S256x2048_o0_0_S256x1024 : S256x2048.Slices ![0, 0] S256x1024
  slices_S256x2048_o0_1024_S256x1024 : S256x2048.Slices ![0, 1024] S256x1024
  reduces_S256x1024_S256 : S256x1024.Reduces [1] S256
  broadcasts_S256x1_S256x1024 : S256x1.Broadcasts S256x1024
  dot_S256x1024_S3072x1024_S256x3072_1_1_0_0_n_n_wf : DotDims.WF S256x1024 S3072x1024 S256x3072 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072x1024.size a ≤ S3072x1024.size a
  hwx0_2 : ∀ i : grid0.Coords, EltTy.bits .bf16 = 32 ∨ (Rect.block (s := S3072x1024) S3072x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x3072.size a ≤ S1x3072.size a
  hwx0_3 : ∀ i : grid0.Coords, EltTy.bits .f32 = 32 ∨ (Rect.block (s := S1x3072) S1x3072.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3072x1024.size a ≤ S3072x1024.size a
  hwx0_4 : ∀ i : grid0.Coords, EltTy.bits .bf16 = 32 ∨ (Rect.block (s := S3072x1024) S3072x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x3072.size a ≤ S1x3072.size a
  hwx0_5 : ∀ i : grid0.Coords, EltTy.bits .f32 = 32 ∨ (Rect.block (s := S1x3072) S1x3072.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)

variable [Facts₀]

def dot_S256x1024_S3072x1024_S256x3072_1_1_0_0_n_n : DotDims S256x1024 S3072x1024 S256x3072 where
  lhsContracting := [1]
  rhsContracting := [1]
  lhsNonContracting := [0]
  rhsNonContracting := [0]
  lhsBatch := []
  rhsBatch := []
  wf := dot_S256x1024_S3072x1024_S256x3072_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S3072x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S3072x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x3072.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S2048x1024 : Shape := ⟨2, ![2048, 1024]⟩
abbrev S2048 : Shape := ⟨1, ![2048]⟩
abbrev S1024x1024 : Shape := ⟨2, ![1024, 1024]⟩
abbrev S1024 : Shape := ⟨1, ![1024]⟩
abbrev S1024x2048 : Shape := ⟨2, ![1024, 2048]⟩
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 142
  | .vmem => 0
  | .smem => 0
  | _ => 0

abbrev hbmTy0_0 (i : Nat) : BufTy := match i % 128 with
  | 0 => ⟨S8192x1024, .f32⟩
  | 1 => ⟨S8192x1024, .f32⟩
  | 2 => ⟨S2048x1024, .f32⟩
  | 3 => ⟨S2048, .f32⟩
  | 4 => ⟨S2048x1024, .f32⟩
  | 5 => ⟨S2048, .f32⟩
  | 6 => ⟨S1024x1024, .f32⟩
  | 7 => ⟨S1024, .f32⟩
  | 8 => ⟨S1024x1024, .f32⟩
  | 9 => ⟨S1024, .f32⟩
  | 10 => ⟨S1024x2048, .f32⟩
  | 11 => ⟨S8192x2048, .f32⟩
  | 12 => ⟨S1x2048, .f32⟩
  | 13 => ⟨S8192x2048, .f32⟩
  | 14 => ⟨S8192x2048, .f32⟩
  | 15 => ⟨S_, .f32⟩
  | 16 => ⟨S8192, .f32⟩
  | 17 => ⟨S8192x1, .f32⟩
  | 18 => ⟨S_, .f32⟩
  | 19 => ⟨S8192x1, .f32⟩
  | 20 => ⟨S8192x1, .f32⟩
  | 21 => ⟨S8192x2048, .f32⟩
  | 22 => ⟨S8192x2048, .f32⟩
  | 23 => ⟨S8192x2048, .f32⟩
  | 24 => ⟨S_, .f32⟩
  | 25 => ⟨S8192, .f32⟩
  | 26 => ⟨S8192x1, .f32⟩
  | 27 => ⟨S_, .f32⟩
  | 28 => ⟨S8192x1, .f32⟩
  | 29 => ⟨S8192x1, .f32⟩
  | 30 => ⟨S8192x2048, .f32⟩
  | 31 => ⟨S8192x2048, .f32⟩
  | 32 => ⟨S_, .f32⟩
  | 33 => ⟨S8192x1, .f32⟩
  | 34 => ⟨S8192x1, .f32⟩
  | 35 => ⟨S8192x1, .f32⟩
  | 36 => ⟨S8192x2048, .f32⟩
  | 37 => ⟨S8192x2048, .f32⟩
  | 38 => ⟨S1024x2048, .f32⟩
  | 39 => ⟨S8192x2048, .f32⟩
  | 40 => ⟨S1x2048, .f32⟩
  | 41 => ⟨S8192x2048, .f32⟩
  | 42 => ⟨S8192x2048, .f32⟩
  | 43 => ⟨S_, .f32⟩
  | 44 => ⟨S8192, .f32⟩
  | 45 => ⟨S8192x1, .f32⟩
  | 46 => ⟨S_, .f32⟩
  | 47 => ⟨S8192x1, .f32⟩
  | 48 => ⟨S8192x1, .f32⟩
  | 49 => ⟨S8192x2048, .f32⟩
  | 50 => ⟨S8192x2048, .f32⟩
  | 51 => ⟨S8192x2048, .f32⟩
  | 52 => ⟨S_, .f32⟩
  | 53 => ⟨S8192, .f32⟩
  | 54 => ⟨S8192x1, .f32⟩
  | 55 => ⟨S_, .f32⟩
  | 56 => ⟨S8192x1, .f32⟩
  | 57 => ⟨S8192x1, .f32⟩
  | 58 => ⟨S8192x2048, .f32⟩
  | 59 => ⟨S8192x2048, .f32⟩
  | 60 => ⟨S_, .f32⟩
  | 61 => ⟨S8192x1, .f32⟩
  | 62 => ⟨S8192x1, .f32⟩
  | 63 => ⟨S8192x1, .f32⟩
  | 64 => ⟨S8192x2048, .f32⟩
  | 65 => ⟨S8192x2048, .f32⟩
  | 66 => ⟨S8192x2048, .f32⟩
  | 67 => ⟨S8192x2048, .f32⟩
  | 68 => ⟨S8192x2048, .f32⟩
  | 69 => ⟨S_, .f32⟩
  | 70 => ⟨S8192x2048, .f32⟩
  | 71 => ⟨S8192x2048, .f32⟩
  | 72 => ⟨S_, .f32⟩
  | 73 => ⟨S8192x2048, .f32⟩
  | 74 => ⟨S8192x2048, .f32⟩
  | 75 => ⟨S8192x1024, .f32⟩
  | 76 => ⟨S8192x1024, .f32⟩
  | 77 => ⟨S1024x1024, .f32⟩
  | 78 => ⟨S8192x1024, .f32⟩
  | 79 => ⟨S1x1024, .f32⟩
  | 80 => ⟨S8192x1024, .f32⟩
  | 81 => ⟨S8192x1024, .f32⟩
  | 82 => ⟨S_, .f32⟩
  | 83 => ⟨S8192, .f32⟩
  | 84 => ⟨S8192x1, .f32⟩
  | 85 => ⟨S_, .f32⟩
  | 86 => ⟨S8192x1, .f32⟩
  | 87 => ⟨S8192x1, .f32⟩
  | 88 => ⟨S8192x1024, .f32⟩
  | 89 => ⟨S8192x1024, .f32⟩
  | 90 => ⟨S8192x1024, .f32⟩
  | 91 => ⟨S_, .f32⟩
  | 92 => ⟨S8192, .f32⟩
  | 93 => ⟨S8192x1, .f32⟩
  | 94 => ⟨S_, .f32⟩
  | 95 => ⟨S8192x1, .f32⟩
  | 96 => ⟨S8192x1, .f32⟩
  | 97 => ⟨S8192x1024, .f32⟩
  | 98 => ⟨S8192x1024, .f32⟩
  | 99 => ⟨S_, .f32⟩
  | 100 => ⟨S8192x1, .f32⟩
  | 101 => ⟨S8192x1, .f32⟩
  | 102 => ⟨S8192x1, .f32⟩
  | 103 => ⟨S8192x1024, .f32⟩
  | 104 => ⟨S8192x1024, .f32⟩
  | 105 => ⟨S1024x1024, .f32⟩
  | 106 => ⟨S8192x1024, .f32⟩
  | 107 => ⟨S1x1024, .f32⟩
  | 108 => ⟨S8192x1024, .f32⟩
  | 109 => ⟨S8192x1024, .f32⟩
  | 110 => ⟨S_, .f32⟩
  | 111 => ⟨S8192, .f32⟩
  | 112 => ⟨S8192x1, .f32⟩
  | 113 => ⟨S_, .f32⟩
  | 114 => ⟨S8192x1, .f32⟩
  | 115 => ⟨S8192x1, .f32⟩
  | 116 => ⟨S8192x1024, .f32⟩
  | 117 => ⟨S8192x1024, .f32⟩
  | 118 => ⟨S8192x1024, .f32⟩
  | 119 => ⟨S_, .f32⟩
  | 120 => ⟨S8192, .f32⟩
  | 121 => ⟨S8192x1, .f32⟩
  | 122 => ⟨S_, .f32⟩
  | 123 => ⟨S8192x1, .f32⟩
  | 124 => ⟨S8192x1, .f32⟩
  | 125 => ⟨S8192x1024, .f32⟩
  | 126 => ⟨S8192x1024, .f32⟩
  | 127 => ⟨S_, .f32⟩
  | _ => ⟨S8192x1024, .f32⟩

abbrev hbmTy0_1 (i : Nat) : BufTy := match i % 128 with
  | 0 => ⟨S8192x1, .f32⟩
  | 1 => ⟨S8192x1, .f32⟩
  | 2 => ⟨S8192x1, .f32⟩
  | 3 => ⟨S8192x1024, .f32⟩
  | 4 => ⟨S8192x1024, .f32⟩
  | 5 => ⟨S8192x1024, .f32⟩
  | 6 => ⟨S8192x1024, .f32⟩
  | 7 => ⟨S8192x1024, .f32⟩
  | 8 => ⟨S_, .f32⟩
  | 9 => ⟨S8192x1024, .f32⟩
  | 10 => ⟨S8192x1024, .f32⟩
  | 11 => ⟨S8192x1024, .f32⟩
  | 12 => ⟨S8192x1024, .f32⟩
  | 13 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_cst_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_cst_12 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_13 : Ref sig .tc := ⟨.hbm, 91, rfl⟩
abbrev main_v67 : Ref sig .tc := ⟨.hbm, 92, rfl⟩
abbrev main_v68 : Ref sig .tc := ⟨.hbm, 93, rfl⟩
abbrev main_cst_14 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_15 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_16 : Ref sig .tc := ⟨.hbm, 110, rfl⟩
abbrev main_v83 : Ref sig .tc := ⟨.hbm, 111, rfl⟩
abbrev main_v84 : Ref sig .tc := ⟨.hbm, 112, rfl⟩
abbrev main_cst_17 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_18 : Ref sig .tc := ⟨.hbm, 119, rfl⟩
abbrev main_v90 : Ref sig .tc := ⟨.hbm, 120, rfl⟩
abbrev main_v91 : Ref sig .tc := ⟨.hbm, 121, rfl⟩
abbrev main_cst_19 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_cst_20 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_21 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩

abbrev nD : Nat := 1
abbrev τ : Topo := Topo.v7x

variable {F : FTy → Type} [FloatOps F]

class Facts₀ : Prop where
  transposes_S2048x1024_S1024x2048_1_0 : S2048x1024.Transposes [1, 0] S1024x2048
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  reducesTo_S8192x2048_S8192_d1 : S8192x2048.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x2048_0_1 : S8192x1.BroadcastsInDim S8192x2048 (![0, 1] : Fin 2 → Fin S8192x2048.rank)
  bcast_S_S8192x2048 : S_.BroadcastsInDim S8192x2048 (![] : Fin 0 → Fin S8192x2048.rank)
  slices_S8192x2048_S8192x1024_0_0 : S8192x2048.Slices ![0, 0] S8192x1024
  slices_S8192x2048_S8192x1024_0_1024 : S8192x2048.Slices ![0, 1024] S8192x1024
  transposes_S1024x1024_S1024x1024_1_0 : S1024x1024.Transposes [1, 0] S1024x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  reducesTo_S8192x1024_S8192_d1 : S8192x1024.ReducesTo [1] S8192
  bcast_S8192x1_S8192x1024_0_1 : S8192x1.BroadcastsInDim S8192x1024 (![0, 1] : Fin 2 → Fin S8192x1024.rank)
  bcast_S_S8192x1024 : S_.BroadcastsInDim S8192x1024 (![] : Fin 0 → Fin S8192x1024.rank)
  dot_S8192x1024_S1024x2048_S8192x2048_1_0_0_1_n_n_wf : DotDims.WF S8192x1024 S1024x2048 S8192x2048 [1] [0] [0] [1] [] []
  dot_S8192x1024_S1024x1024_S8192x1024_1_0_0_1_n_n_wf : DotDims.WF S8192x1024 S1024x1024 S8192x1024 [1] [0] [0] [1] [] []

variable [Facts₀]

def dot_S8192x1024_S1024x2048_S8192x2048_1_0_0_1_n_n : DotDims S8192x1024 S1024x2048 S8192x2048 where
  lhsContracting := [1]
  rhsContracting := [0]
  lhsNonContracting := [0]
  rhsNonContracting := [1]
  lhsBatch := []
  rhsBatch := []
  wf := dot_S8192x1024_S1024x2048_S8192x2048_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.RowNorm.lean ====
/-
  Row normalization over the extended reals, in the two arrangements the two programs use.

  For a row `v` of `N` entries, with `n` the entry count as a float constant and `ε` a float constant:
  * the ONE-PASS form takes the mean `μ = (∑ v) / n` and the mean of squares `(∑ v·v) / n`, forms
    `max (meanSq - μ·μ) z` (`z` the zero constant) and scales `v j - μ` by the reciprocal square root of that plus `ε`;
  * the TWO-PASS form takes `μ` the same way, then the mean of `(v - μ)·(v - μ)`, and scales `v j - μ` by the
    reciprocal square root of that plus `ε`.
  On a row of REAL entries with `n = N ≠ 0` the two agree: `(∑ v²)/N - μ² = (∑ (v - μ)²)/N`, and this common value is
  non-negative, so the `max` against zero is the identity. On the extended reals the identity needs the entries
  finite (differences of infinities are not cancelled), which is why the lemma is stated for entries that are reals.
-/
import Idealize.ShloMosaic.PureOps.Ideal
import Mathlib.Algebra.BigOperators.Field
import Mathlib.Tactic

noncomputable section

namespace Cert.RowNorm

open Idealize.ShloMosaic

/-- Every entry of an extended-real family is a real number. -/
def Real' {ι : Type*} (v : ι → EReal) : Prop := ∀ i, ∃ r : ℝ, v i = (r : EReal)

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The one-pass normalization of entry `j` of the row `v`. -/
def onePass {N : ℕ} (n z ε : EReal) (v : Fin N → EReal) (j : Fin N) : EReal :=
  (v j - Ideal.div (∑ k, v k) n) *
    Ideal.rsqrt (max (Ideal.div (∑ k, v k * v k) n - Ideal.div (∑ k, v k) n * Ideal.div (∑ k, v k) n) z + ε)

/-- The two-pass normalization of entry `j` of the row `v`. -/
def twoPass {N : ℕ} (n ε : EReal) (v : Fin N → EReal) (j : Fin N) : EReal :=
  (v j - Ideal.div (∑ k, v k) n) *
    Ideal.rsqrt (Ideal.div (∑ k, (v k - Ideal.div (∑ k, v k) n) * (v k - Ideal.div (∑ k, v k) n)) n + ε)

/-- The variance identity on the reals: the mean of squares less the squared mean is the mean of squared deviations. -/
theorem var_identity {N : ℕ} (hN : (N : ℝ) ≠ 0) (r : Fin N → ℝ) :
    (∑ k, r k * r k) * (1 / (N : ℝ)) - (∑ k, r k) * (1 / (N : ℝ)) * ((∑ k, r k) * (1 / (N : ℝ)))
      = (∑ k, (r k - (∑ k, r k) * (1 / (N : ℝ))) * (r k - (∑ k, r k) * (1 / (N : ℝ)))) * (1 / (N : ℝ)) := by
  set S := ∑ k, r k with hS
  set μ := S * (1 / (N : ℝ)) with hμ
  have h1 : ∑ k, (r k - μ) * (r k - μ) = (∑ k, r k * r k) - 2 * μ * S + (N : ℝ) * (μ * μ) := by
    have : ∀ k, (r k - μ) * (r k - μ) = r k * r k - 2 * μ * r k + μ * μ := fun k => by ring
    simp only [this, Finset.sum_add_distrib, Finset.sum_sub_distrib, ← Finset.mul_sum, Finset.sum_const,
      Finset.card_univ, Fintype.card_fin, nsmul_eq_mul, ← hS]
    ring
  rw [h1, hμ]
  field_simp
  ring

/-- On a row of reals, with the count constant the real `N ≠ 0` and the zero constant `0`, the two forms agree. -/
theorem onePass_eq_twoPass {N : ℕ} (hN : (N : ℝ) ≠ 0) (ε : EReal) (v : Fin N → EReal) (hv : Real' v) (j : Fin N) :
    onePass ((N : ℝ) : EReal) 0 ε v j = twoPass ((N : ℝ) : EReal) ε v j := by
  choose r hr using hv
  have hvr : v = fun k => (r k : EReal) := funext hr
  subst hvr
  unfold onePass twoPass
  have hS1 : (∑ k, (r k : EReal)) = ((∑ k, r k : ℝ) : EReal) := (coe_sum _ _).symm
  have hS2 : (∑ k, (r k : EReal) * (r k : EReal)) = ((∑ k, r k * r k : ℝ) : EReal) := by
    rw [coe_sum]; exact Finset.sum_congr rfl fun k _ => (EReal.coe_mul _ _).symm
  rw [hS1, hS2, Ideal.div_coe hN, Ideal.div_coe hN, ← EReal.coe_mul, ← EReal.coe_mul]
  have hS3 : (∑ k, ((r k : EReal) - ((∑ k, r k) * (1 / (N : ℝ)) : ℝ)) * ((r k : EReal) - ((∑ k, r k) * (1 / (N : ℝ)) : ℝ)))
      = ((∑ k, (r k - (∑ k, r k) * (1 / (N : ℝ))) * (r k - (∑ k, r k) * (1 / (N : ℝ))) : ℝ) : EReal) := by
    rw [coe_sum]; exact Finset.sum_congr rfl fun k _ => by rw [← EReal.coe_sub, ← EReal.coe_mul]
  rw [hS3, Ideal.div_coe hN, ← EReal.coe_mul, ← EReal.coe_mul, ← EReal.coe_sub, ← EReal.coe_sub, var_identity hN r]
  have h0 : (0 : ℝ) ≤ (∑ k, (r k - (∑ k, r k) * (1 / (N : ℝ))) * (r k - (∑ k, r k) * (1 / (N : ℝ)))) * (1 / (N : ℝ)) := by
    refine mul_nonneg (Finset.sum_nonneg fun k _ => mul_self_nonneg _) ?_
    positivity
  rw [max_eq_left (show (0 : EReal) ≤ _ from by exact_mod_cast h0)]

end Cert.RowNorm

end
-- ==== Proof.Spec.lean ====
/-
  The cell both programs compute, as ONE function of the argument arrays, entry by entry.

  Row `p` of the batch enters through four affine projections — of `x[p,:]` against the rows of `W_irz` (2048 of them)
  and `W_in` (1024), of `h[p,:]` against the rows of `W_hrz` and `W_hn`, each plus its bias. Each projected row is
  normalized along the row; then, at column `q`,
    r = σ(irz[q] + hrz[q]),  z = σ(irz[1024+q] + hrz[1024+q]),  n = tanh(in[q] + r · hn[q]),
    out[p,q] = (1 - z) · n + z · h[p,q].
  The row normalization is a parameter of the definition: one program normalizes in one pass over the row, the other
  in two (`RowNorm`), and on rows of real entries the two are one function, so the two cells agree whenever the
  four projected rows are real — which they are when every input entry is.
-/
import proofs.«163678_j64982855188492_2_alg».proof.Proof.RowNorm
import Idealize.ShloMosaic.Lib.ValueIdx

noncomputable section

namespace Cert.Gru

open Idealize.ShloMosaic Idealize.ShloMosaic.ValueIdx Cert.RowNorm

/-- The float constants the two programs share, as the extended reals their patterns denote. -/
abbrev cOne : EReal := Ideal.ofBits .f32 0x3F800000#32
abbrev c2048 : EReal := Ideal.ofBits .f32 0x45000000#32
abbrev c1024 : EReal := Ideal.ofBits .f32 0x44800000#32
abbrev cZero : EReal := Ideal.ofBits .f32 0x00000000#32
abbrev cEps : EReal := Ideal.ofBits .f32 0x3727C5AC#32

theorem cOne_eq : cOne = 1 := by
  simp [Ideal.ofBits, Ideal.ieee, -EReal.coe_mul]; norm_num
theorem cZero_eq : cZero = 0 := by
  simp [Ideal.ofBits, Ideal.ieee]
theorem c2048_eq : c2048 = (((2048 : ℕ) : ℝ) : EReal) := by
  simp [Ideal.ofBits, Ideal.ieee, -EReal.coe_mul]; norm_num
theorem c1024_eq : c1024 = (((1024 : ℕ) : ℝ) : EReal) := by
  simp [Ideal.ofBits, Ideal.ieee, -EReal.coe_mul]; norm_num

/-- Column `q` of the reset half and of the update half of a 2048-wide gate row. -/
abbrev lo (q : Fin 1024) : Fin 2048 := ⟨q.val, by omega⟩
abbrev hi (q : Fin 1024) : Fin 2048 := ⟨q.val + 1024, by omega⟩

/-- Entry `j` of the affine projection of row `p` of `x`: the dot product with row `j` of `W`, plus `b j`. -/
def proj {B K M : ℕ} (x : (⟨2, ![B, K]⟩ : Shape).Idx → EReal) (W : (⟨2, ![M, K]⟩ : Shape).Idx → EReal)
    (b : (⟨1, ![M]⟩ : Shape).Idx → EReal) (p : Fin B) (j : Fin M) : EReal :=
  (∑ k : Fin K, x (ix2 p k) * W (ix2 j k)) + b (ix1 j)

/-- The gate arithmetic at column `q`, from the four projected rows, the two row normalizations and the old state's entry. -/
def gate (L2 : (Fin 2048 → EReal) → Fin 2048 → EReal) (L1 : (Fin 1024 → EReal) → Fin 1024 → EReal)
    (irz hrz : Fin 2048 → EReal) (inn hn : Fin 1024 → EReal) (hq : EReal) (q : Fin 1024) : EReal :=
  (cOne - Ideal.logistic (L2 irz (hi q) + L2 hrz (hi q))) *
      Ideal.tanh (L1 inn q + Ideal.logistic (L2 irz (lo q) + L2 hrz (lo q)) * L1 hn q)
    + Ideal.logistic (L2 irz (hi q) + L2 hrz (hi q)) * hq

/-- The gate with the one-pass normalization, and with the two-pass one. -/
abbrev gate1 := gate (onePass c2048 cZero cEps) (onePass c1024 cZero cEps)
abbrev gate2 := gate (twoPass c2048 cEps) (twoPass c1024 cEps)

/-- On real projected rows the two gates are one function. -/
theorem gate1_eq_gate2 (irz hrz : Fin 2048 → EReal) (inn hn : Fin 1024 → EReal) (hq : EReal) (q : Fin 1024)
    (h1 : Real' irz) (h2 : Real' hrz) (h3 : Real' inn) (h4 : Real' hn) :
    gate1 irz hrz inn hn hq q = gate2 irz hrz inn hn hq q := by
  have e2 : ∀ v, Real' v → onePass c2048 cZero cEps v = twoPass c2048 cEps v := fun v hv => funext fun j => by
    rw [c2048_eq, cZero_eq]; exact onePass_eq_twoPass (by norm_num) cEps v hv j
  have e1 : ∀ v, Real' v → onePass c1024 cZero cEps v = twoPass c1024 cEps v := fun v hv => funext fun j => by
    rw [c1024_eq, cZero_eq]; exact onePass_eq_twoPass (by norm_num) cEps v hv j
  unfold gate1 gate2 gate
  rw [e2 irz h1, e2 hrz h2, e1 inn h3, e1 hn h4]

/-- A projection of real data is real. -/
theorem proj_real {B K M : ℕ} (x : (⟨2, ![B, K]⟩ : Shape).Idx → EReal) (W : (⟨2, ![M, K]⟩ : Shape).Idx → EReal)
    (b : (⟨1, ![M]⟩ : Shape).Idx → EReal) (hx : Real' x) (hW : Real' W) (hb : Real' b) (p : Fin B) :
    Real' (proj x W b p) := by
  intro j
  choose X hX using hx
  choose V hV using hW
  choose c hc using hb
  refine ⟨(∑ k : Fin K, X (ix2 p k) * V (ix2 j k)) + c (ix1 j), ?_⟩
  unfold proj
  rw [EReal.coe_add, coe_sum, hc]
  congr 1
  exact Finset.sum_congr rfl fun k _ => by rw [hX, hV, EReal.coe_mul]

/-- THE CELL, with the two-pass normalization: entry `(p, q)` of the result as a function of the ten argument arrays. -/
def cell (x h : (⟨2, ![8192, 1024]⟩ : Shape).Idx → EReal)
    (Wirz : (⟨2, ![2048, 1024]⟩ : Shape).Idx → EReal) (birz : (⟨1, ![2048]⟩ : Shape).Idx → EReal)
    (Whrz : (⟨2, ![2048, 1024]⟩ : Shape).Idx → EReal) (bhrz : (⟨1, ![2048]⟩ : Shape).Idx → EReal)
    (Win : (⟨2, ![1024, 1024]⟩ : Shape).Idx → EReal) (bin : (⟨1, ![1024]⟩ : Shape).Idx → EReal)
    (Whn : (⟨2, ![1024, 1024]⟩ : Shape).Idx → EReal) (bhn : (⟨1, ![1024]⟩ : Shape).Idx → EReal) :
    (⟨2, ![8192, 1024]⟩ : Shape).Idx → EReal := fun i =>
  gate2 (proj x Wirz birz (i 0)) (proj h Whrz bhrz (i 0)) (proj x Win bin (i 0)) (proj h Whn bhn (i 0)) (h i) (i 1)

end Cert.Gru

end
-- ==== Proof.LibKeepdims.lean ====
/-
  Layout operations of a row-wise reduction kept as a column, read at an index written by coordinates:
  a block with two leading unit axes viewed as a matrix and back, a vector viewed as a one-column matrix,
  and a one-column matrix broadcast along its rows.  Each is the general read-at-an-index lemma of the
  layout operation with the operand's index already chosen.
-/
import Idealize.ShloMosaic.Lib.Pipeline.Value
import Idealize.ShloMosaic.Lib.ValueIdx

noncomputable section

namespace Cert.LibKeepdims

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]
    omega)

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- So a vector kept as a column and broadcast along the rows reads, at `(p, c)`, the vector at `p`. -/
theorem keepdims_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

end Cert.LibKeepdims

end
-- ==== Proof.KernelRows.lean ====
/-
  The kernel body's vector operations, read at an entry of the block.

  The body normalizes a block of 256 rows at once: a lane sum over each row kept as a column `[256, 1]`, divided by
  the row length, broadcast back along the row; the same for the squares; the difference of the mean of squares and the
  squared mean floored at zero; the reciprocal square root of that plus ε, again broadcast along the row. Read at the
  entry `(r, j)` this is the one-pass normalization (`RowNorm.onePass`) of row `r` of the block at `j`: every
  layout operation between the sums and the entry — the cast of the vector of sums to a column, the broadcast of the column
  along the rows — reads the statistic of the entry's own row.
-/
import proofs.«163678_j64982855188492_2_alg».proof.Proof.Spec
import proofs.«163678_j64982855188492_2_alg».proof.Proof.LibKeepdims
import Idealize.ShloMosaic.Lib.ValueLayout
import Idealize.ShloMosaic.PureOps.Ideal.Laws

noncomputable section

namespace Cert.Gru

open Idealize.ShloMosaic Idealize.ShloMosaic.ValueIdx Cert.RowNorm Cert.LibKeepdims

/-- A lane sum over the rows of a matrix, read at row `r`: the sum of that row's entries. -/
theorem rowSum_apply {a b : ℕ} (V : FVec Ideal ⟨2, ![a, b]⟩ .f32) (h : (⟨2, ![a, b]⟩ : Shape).Reduces [1] ⟨1, ![a]⟩)
    (hφ : FKind.Formats .f32) (hacc : (0x00000000#32 : BitVec (FTy.bits .f32)) = FKind.add.neutral .f32 hφ) (r : Fin a) :
    multiReduction .add [1] ⟨1, ![a]⟩ V 0x00000000#32 h hφ hacc (ix1 r) = ∑ k : Fin b, V (ix2 r k) := by
  refine (Ideal.multiReduction_add_single V 0x00000000#32 h hφ hacc (ix1 r)).trans ?_
  exact Finset.sum_congr rfl fun k _ => congrArg V (funext fun d => by
    match d with
    | ⟨0, _⟩ => rfl
    | ⟨1, _⟩ => rfl)

/-- The block normalization as the body spells it, for rows of length `b` and the row-length constant `n`. -/
def lnVec {b : ℕ} (hR : (⟨2, ![256, b]⟩ : Shape).Reduces [1] ⟨1, ![256]⟩)
    (hC : (⟨1, ![256]⟩ : Shape).ShapeCasts ⟨2, ![256, 1]⟩) (hB : (⟨2, ![256, 1]⟩ : Shape).Broadcasts ⟨2, ![256, b]⟩)
    (n : BitVec 32) (V : FVec Ideal ⟨2, ![256, b]⟩ .f32) : FVec Ideal ⟨2, ![256, b]⟩ .f32 :=
  mulf (subf V (broadcastTo ⟨2, ![256, b]⟩ (divf (shapeCast ⟨2, ![256, 1]⟩ (multiReduction .add [1] ⟨1, ![256]⟩ V 0x00000000#32 hR (.inl rfl) rfl) hC)
        (broadcast ⟨2, ![256, 1]⟩ (Scalar.ofBits .f32 n))) hB))
    (broadcastTo ⟨2, ![256, b]⟩ (rsqrt (addf (maximumf (subf
        (divf (shapeCast ⟨2, ![256, 1]⟩ (multiReduction .add [1] ⟨1, ![256]⟩ (mulf V V) 0x00000000#32 hR (.inl rfl) rfl) hC)
          (broadcast ⟨2, ![256, 1]⟩ (Scalar.ofBits .f32 n)))
        (mulf (divf (shapeCast ⟨2, ![256, 1]⟩ (multiReduction .add [1] ⟨1, ![256]⟩ V 0x00000000#32 hR (.inl rfl) rfl) hC)
            (broadcast ⟨2, ![256, 1]⟩ (Scalar.ofBits .f32 n)))
          (divf (shapeCast ⟨2, ![256, 1]⟩ (multiReduction .add [1] ⟨1, ![256]⟩ V 0x00000000#32 hR (.inl rfl) rfl) hC)
            (broadcast ⟨2, ![256, 1]⟩ (Scalar.ofBits .f32 n)))))
        (broadcast ⟨2, ![256, 1]⟩ (Scalar.ofBits .f32 0x00000000#32)))
      (broadcast ⟨2, ![256, 1]⟩ (Scalar.ofBits .f32 0x3727C5AC#32)))) hB)

/-- Read at `(r, j)`, the block normalization is the one-pass normalization of row `r` at `j`. -/
theorem lnVec_apply {b : ℕ} (hR : (⟨2, ![256, b]⟩ : Shape).Reduces [1] ⟨1, ![256]⟩)
    (hC : (⟨1, ![256]⟩ : Shape).ShapeCasts ⟨2, ![256, 1]⟩) (hB : (⟨2, ![256, 1]⟩ : Shape).Broadcasts ⟨2, ![256, b]⟩)
    (n : BitVec 32) (V : FVec Ideal ⟨2, ![256, b]⟩ .f32) (r : Fin 256) (j : Fin b) :
    lnVec hR hC hB n V (ix2 r j) = onePass (Ideal.ofBits .f32 n) cZero cEps (fun k => V (ix2 r k)) j := by
  unfold lnVec onePass
  show (V (ix2 r j) - broadcastTo ⟨2, ![256, b]⟩ _ hB (ix2 r j)) * broadcastTo ⟨2, ![256, b]⟩ _ hB (ix2 r j) = _
  rw [broadcastTo_a1_ab_apply, broadcastTo_a1_ab_apply]
  show (V (ix2 r j) - Ideal.div (shapeCast ⟨2, ![256, 1]⟩ _ hC (ix2 r (0 : Fin 1))) (Ideal.ofBits .f32 n)) *
      Ideal.rsqrt (max (Ideal.div (shapeCast ⟨2, ![256, 1]⟩ _ hC (ix2 r (0 : Fin 1))) (Ideal.ofBits .f32 n)
          - Ideal.div (shapeCast ⟨2, ![256, 1]⟩ _ hC (ix2 r (0 : Fin 1))) (Ideal.ofBits .f32 n)
            * Ideal.div (shapeCast ⟨2, ![256, 1]⟩ _ hC (ix2 r (0 : Fin 1))) (Ideal.ofBits .f32 n)) cZero + cEps) = _
  rw [shapeCast_a_a1_apply, shapeCast_a_a1_apply]
  exact congrArg₂ (fun A B : EReal => (V (ix2 r j) - Ideal.div A (Ideal.ofBits .f32 n)) *
      Ideal.rsqrt (max (Ideal.div B (Ideal.ofBits .f32 n)
        - Ideal.div A (Ideal.ofBits .f32 n) * Ideal.div A (Ideal.ofBits .f32 n)) cZero + cEps))
    (rowSum_apply V hR _ _ r) (rowSum_apply (mulf V V) hR _ _ r)

end Cert.Gru

end
-- ==== Proof.KernelProj.lean ====
/-
  The kernel body's two fused projections, read at an entry.

  The body multiplies the 256-row block of `x` (or of `h`) against ALL 3072 weight rows at once — the rows of the
  gate weights stacked on the rows of the candidate weights — contracting the last axis of both operands, into a zero
  accumulator, and adds the 3072 stacked biases, held as one row `[1, 3072]` and broadcast over the 256 rows. Read at
  `(r, j)`: the dot product of row `r` of the block with weight row `j`, plus bias `j`. (The change of float format
  on the way into the product is the identity on the extended reals.)
-/
import proofs.«163678_j64982855188492_2_alg».proof.Proof.Gen.KernelIdeal.Skeleton
import proofs.«163678_j64982855188492_2_alg».proof.Proof.Spec
import Idealize.ShloMosaic.Lib.ValueLayout
import Idealize.ShloMosaic.PureOps.Ideal.Laws

noncomputable section

namespace Cert.Gru

open Idealize.ShloMosaic Idealize.ShloMosaic.ValueIdx Cert.KernelIdeal Cert.KernelIdeal.Gen

/-- The product's record: both operands are contracted along their last axis. -/
abbrev D3 := dot_S256x1024_S3072x1024_S256x3072_1_1_0_0_n_n

theorem D3_lhs0 (i : S256x3072.Idx) (q : D3.contr.Idx) : (D3.lhsIdx i q 0).val = (i 0).val := by
  unfold DotDims.lhsIdx
  rw [dif_neg (show ¬(0 : Fin S256x1024.rank) ∈ D3.lhsBatch by decide), dif_pos (show (0 : Fin S256x1024.rank) ∈ D3.lhsNonContracting by decide)]
  rfl
theorem D3_lhs1 (i : S256x3072.Idx) (q : D3.contr.Idx) : (D3.lhsIdx i q 1).val = (q ⟨0, by decide⟩).val :=
  D3.lhsIdx_val_of_single rfl i q
theorem D3_rhs0 (i : S256x3072.Idx) (q : D3.contr.Idx) : (D3.rhsIdx i q 0).val = (i 1).val := by
  unfold DotDims.rhsIdx
  rw [dif_neg (show ¬(0 : Fin S3072x1024.rank) ∈ D3.rhsBatch by decide), dif_pos (show (0 : Fin S3072x1024.rank) ∈ D3.rhsNonContracting by decide)]
  rfl
theorem D3_rhs1 (i : S256x3072.Idx) (q : D3.contr.Idx) : (D3.rhsIdx i q 1).val = (q ⟨0, by decide⟩).val :=
  D3.rhsIdx_val_of_single rfl i q

/-- The fused projection of the block `X` against the stacked weights `W` with the stacked biases `bias`, at `(r, j)`. -/
theorem fused_apply (X : FVec Ideal S256x1024 .f32) (W : FVec Ideal S3072x1024 .bf16) (bias : FVec Ideal S1x3072 .f32)
    (r : Fin 256) (j : Fin 3072) :
    k0_pay2 (F := Ideal) X W bias (ix2 r j) = (∑ k : Fin 1024, X (ix2 r k) * W (ix2 j k)) + bias (ix2 (0 : Fin 1) j) := by
  unfold k0_pay2
  show matmul D3 none (truncf .bf16 X bitsLt_bf16_f32) (shapeCast S3072x1024 W shapeCasts_S3072x1024_S3072x1024) (constant S256x3072 .f32 0x00000000#32) (ix2 r j)
      + broadcastTo S256x3072 (shapeCast S1x3072 bias shapeCasts_S1x3072_S1x3072) broadcasts_S1x3072_S256x3072 (ix2 r j) = _
  rw [shapeCast_self, shapeCast_self, broadcastTo_1b_ab_apply]
  refine congrArg (· + bias (ix2 (0 : Fin 1) j)) ?_
  simp only [matmul]
  rw [Ideal.matmul_constant_zero_apply, ← Equiv.sum_comp (contrEquiv1 D3 1024 rfl rfl).symm]
  refine Finset.sum_congr rfl fun k _ => ?_
  have hk := contrEquiv1_symm_val D3 1024 rfl rfl k
  have el : D3.lhsIdx (ix2 r j) ((contrEquiv1 D3 1024 rfl rfl).symm k) = ix2 r k := funext fun a => Fin.ext (by
    match a with
    | ⟨0, _⟩ => exact D3_lhs0 _ _
    | ⟨1, _⟩ => exact (D3_lhs1 _ _).trans hk)
  have er : D3.rhsIdx (ix2 r j) ((contrEquiv1 D3 1024 rfl rfl).symm k) = ix2 j k := funext fun a => Fin.ext (by
    match a with
    | ⟨0, _⟩ => exact D3_rhs0 _ _
    | ⟨1, _⟩ => exact (D3_rhs1 _ _).trans hk)
  rw [el, er]
  rfl

/-- The second projection of the body is the same function of its three loads. -/
theorem fused_apply' (X : FVec Ideal S256x1024 .f32) (W : FVec Ideal S3072x1024 .bf16) (bias : FVec Ideal S1x3072 .f32)
    (r : Fin 256) (j : Fin 3072) :
    k0_pay3 (F := Ideal) X W bias (ix2 r j) = (∑ k : Fin 1024, X (ix2 r k) * W (ix2 j k)) + bias (ix2 (0 : Fin 1) j) :=
  fused_apply X W bias r j

end Cert.Gru

end
-- ==== Proof.KernelGate.lean ====
/-
  The whole body of the kernel at an entry of its output block.

  With `A` and `B` the two fused projections of the block (256 rows, 3072 columns each), the body cuts each into its
  2048 gate columns and its 1024 candidate columns, normalizes each of the four pieces along its rows, forms
  `Z = σ(norm A_gate + norm B_gate)` (2048 columns: the reset half, then the update half) and stores
    (1 - Z_update) · tanh(norm A_cand + Z_reset · norm B_cand) + Z_update · h.
  Read at `(r, q)`, every cut reads column `q` (or `1024 + q`, or `2048 + q`) of row `r`, so the stored entry is the
  gate arithmetic (`gate1`, with the one-pass normalization) of row `r`'s four projected pieces.
-/
import proofs.«163678_j64982855188492_2_alg».proof.Proof.KernelRows
import proofs.«163678_j64982855188492_2_alg».proof.Proof.KernelProj

noncomputable section

namespace Cert.Gru

open Idealize.ShloMosaic Idealize.ShloMosaic.ValueIdx Cert.KernelIdeal Cert.KernelIdeal.Gen Cert.RowNorm

/-- The gate columns and the candidate columns of a fused 3072-wide row. -/
abbrev gcol (j : Fin 2048) : Fin 3072 := ⟨0 + j.val, by omega⟩
abbrev ccol (j : Fin 1024) : Fin 3072 := ⟨2048 + j.val, by omega⟩

/-- The body's stored value as vector operations of the two fused projections and the block of `h`. -/
def gateVec (A B : FVec Ideal S256x3072 .f32) (Hb : FVec Ideal S256x1024 .f32) : FVec Ideal S256x1024 .f32 :=
  addf (mulf (subf (broadcast S256x1024 (Scalar.ofBits .f32 0x3F800000#32))
        (extractStridedSlice S256x1024 ![0, 1024]
          (logistic (addf
            (lnVec reduces_S256x2048_S256 shapeCasts_S256_S256x1 broadcasts_S256x1_S256x2048 0x45000000#32
              (extractStridedSlice S256x2048 ![0, 0] A slices_S256x3072_o0_0_S256x2048))
            (lnVec reduces_S256x2048_S256 shapeCasts_S256_S256x1 broadcasts_S256x1_S256x2048 0x45000000#32
              (extractStridedSlice S256x2048 ![0, 0] B slices_S256x3072_o0_0_S256x2048))))
          slices_S256x2048_o0_1024_S256x1024))
      (tanh (addf
        (lnVec reduces_S256x1024_S256 shapeCasts_S256_S256x1 broadcasts_S256x1_S256x1024 0x44800000#32
          (extractStridedSlice S256x1024 ![0, 2048] A slices_S256x3072_o0_2048_S256x1024))
        (mulf
          (extractStridedSlice S256x1024 ![0, 0]
            (logistic (addf
              (lnVec reduces_S256x2048_S256 shapeCasts_S256_S256x1 broadcasts_S256x1_S256x2048 0x45000000#32
                (extractStridedSlice S256x2048 ![0, 0] A slices_S256x3072_o0_0_S256x2048))
              (lnVec reduces_S256x2048_S256 shapeCasts_S256_S256x1 broadcasts_S256x1_S256x2048 0x45000000#32
                (extractStridedSlice S256x2048 ![0, 0] B slices_S256x3072_o0_0_S256x2048))))
            slices_S256x2048_o0_0_S256x1024)
          (lnVec reduces_S256x1024_S256 shapeCasts_S256_S256x1 broadcasts_S256x1_S256x1024 0x44800000#32
            (extractStridedSlice S256x1024 ![0, 2048] B slices_S256x3072_o0_2048_S256x1024))))))
    (mulf
      (extractStridedSlice S256x1024 ![0, 1024]
        (logistic (addf
          (lnVec reduces_S256x2048_S256 shapeCasts_S256_S256x1 broadcasts_S256x1_S256x2048 0x45000000#32
            (extractStridedSlice S256x2048 ![0, 0] A slices_S256x3072_o0_0_S256x2048))
          (lnVec reduces_S256x2048_S256 shapeCasts_S256_S256x1 broadcasts_S256x1_S256x2048 0x45000000#32
            (extractStridedSlice S256x2048 ![0, 0] B slices_S256x3072_o0_0_S256x2048))))
        slices_S256x2048_o0_1024_S256x1024)
      Hb)

/-- The store's payload is that composite of the body's loads. -/
theorem payload_eq (X Hb : FVec Ideal S256x1024 .f32) (Wx Wh : FVec Ideal S3072x1024 .bf16) (bx bh : FVec Ideal S1x3072 .f32) :
    k0_pay1 (F := Ideal) Hb (k0_pay7 Hb Wh bh) (k0_pay12 (k0_pay6 Hb Wh bh) (k0_pay9 X Wx bx) (k0_pay10 X Wx bx))
        (k0_pay13 (k0_pay6 Hb Wh bh) (k0_pay9 X Wx bx) (k0_pay10 X Wx bx)) (k0_pay14 (k0_pay5 X Wx bx))
      = gateVec (k0_pay2 X Wx bx) (k0_pay3 Hb Wh bh) Hb := rfl

/-- Read at `(r, q)`, the stored value is the gate arithmetic of row `r`'s pieces. -/
theorem gateVec_apply (A B : FVec Ideal S256x3072 .f32) (Hb : FVec Ideal S256x1024 .f32) (r : Fin 256) (q : Fin 1024) :
    gateVec A B Hb (ix2 r q)
      = gate1 (fun j => A (ix2 r (gcol j))) (fun j => B (ix2 r (gcol j)))
          (fun j => A (ix2 r (ccol j))) (fun j => B (ix2 r (ccol j))) (Hb (ix2 r q)) q := by
  unfold gateVec gate1 gate
  show (cOne - extractStridedSlice (s := S256x2048) S256x1024 ![0, 1024] _ slices_S256x2048_o0_1024_S256x1024 (ix2 r q))
        * Ideal.tanh (lnVec _ _ _ _ _ (ix2 r q)
            + extractStridedSlice (s := S256x2048) S256x1024 ![0, 0] _ slices_S256x2048_o0_0_S256x1024 (ix2 r q) * lnVec _ _ _ _ _ (ix2 r q))
      + extractStridedSlice (s := S256x2048) S256x1024 ![0, 1024] _ slices_S256x2048_o0_1024_S256x1024 (ix2 r q) * Hb (ix2 r q) = _
  rw [slice2_axis1_apply 1024 _ slices_S256x2048_o0_1024_S256x1024 r q (hi q) (Nat.add_comm _ _),
    slice2_axis1_apply 0 _ slices_S256x2048_o0_0_S256x1024 r q (lo q) (Nat.zero_add _).symm]
  show (cOne - Ideal.logistic (lnVec _ _ _ _ _ (ix2 r (hi q)) + lnVec _ _ _ _ _ (ix2 r (hi q))))
        * Ideal.tanh (lnVec _ _ _ _ _ (ix2 r q)
            + Ideal.logistic (lnVec _ _ _ _ _ (ix2 r (lo q)) + lnVec _ _ _ _ _ (ix2 r (lo q))) * lnVec _ _ _ _ _ (ix2 r q))
      + Ideal.logistic (lnVec _ _ _ _ _ (ix2 r (hi q)) + lnVec _ _ _ _ _ (ix2 r (hi q))) * Hb (ix2 r q) = _
  simp only [lnVec_apply, slice2_axis1_eq]

end Cert.Gru

end
-- ==== Proof.Point.lean ====
/-
  One entry of the kernel's block is one entry of the cell.

  Stated for any six loaded blocks and any ten argument arrays related the way the windows relate them: row `r` of the
  activation blocks is row `p` of the arrays; the fused weight block holds the gate weights in its first 2048 rows and
  the candidate weights in the next 1024; the fused bias row likewise. Then the body's stored entry `(r, q)` — the gate
  arithmetic with the one-pass normalization over the fused projections — is the cell's entry `(p, q)`: the fused
  projections cut into their gate and candidate columns are the four separate projections, and on real data the one-pass
  normalization is the two-pass one.
-/
import proofs.«163678_j64982855188492_2_alg».proof.Proof.KernelGate

noncomputable section

namespace Cert.Gru

open Idealize.ShloMosaic Idealize.ShloMosaic.ValueIdx Cert.KernelIdeal Cert.KernelIdeal.Gen Cert.RowNorm

theorem point_eq (x h : (⟨2, ![8192, 1024]⟩ : Shape).Idx → EReal) (Wirz : (⟨2, ![2048, 1024]⟩ : Shape).Idx → EReal) (birz : (⟨1, ![2048]⟩ : Shape).Idx → EReal)
    (Whrz : (⟨2, ![2048, 1024]⟩ : Shape).Idx → EReal) (bhrz : (⟨1, ![2048]⟩ : Shape).Idx → EReal) (Win : (⟨2, ![1024, 1024]⟩ : Shape).Idx → EReal) (bin : (⟨1, ![1024]⟩ : Shape).Idx → EReal)
    (Whn : (⟨2, ![1024, 1024]⟩ : Shape).Idx → EReal) (bhn : (⟨1, ![1024]⟩ : Shape).Idx → EReal)
    (hx : Real' x) (hh : Real' h) (hWirz : Real' Wirz) (hbirz : Real' birz) (hWhrz : Real' Whrz) (hbhrz : Real' bhrz)
    (hWin : Real' Win) (hbin : Real' bin) (hWhn : Real' Whn) (hbhn : Real' bhn)
    (X Hb : FVec Ideal S256x1024 .f32) (Wx Wh : FVec Ideal S3072x1024 .bf16) (bx bh : FVec Ideal S1x3072 .f32)
    (p : Fin 8192) (r : Fin 256)
    (eX : ∀ k : Fin 1024, X (ix2 r k) = x (ix2 p k)) (eH : ∀ k : Fin 1024, Hb (ix2 r k) = h (ix2 p k))
    (eWxg : ∀ (j : Fin 2048) (k : Fin 1024), Wx (ix2 (gcol j) k) = Wirz (ix2 j k))
    (eWxc : ∀ (j : Fin 1024) (k : Fin 1024), Wx (ix2 (ccol j) k) = Win (ix2 j k))
    (eWhg : ∀ (j : Fin 2048) (k : Fin 1024), Wh (ix2 (gcol j) k) = Whrz (ix2 j k))
    (eWhc : ∀ (j : Fin 1024) (k : Fin 1024), Wh (ix2 (ccol j) k) = Whn (ix2 j k))
    (ebxg : ∀ j : Fin 2048, bx (ix2 (0 : Fin 1) (gcol j)) = birz (ix1 j))
    (ebxc : ∀ j : Fin 1024, bx (ix2 (0 : Fin 1) (ccol j)) = bin (ix1 j))
    (ebhg : ∀ j : Fin 2048, bh (ix2 (0 : Fin 1) (gcol j)) = bhrz (ix1 j))
    (ebhc : ∀ j : Fin 1024, bh (ix2 (0 : Fin 1) (ccol j)) = bhn (ix1 j)) (q : Fin 1024) :
    gateVec (k0_pay2 (F := Ideal) X Wx bx) (k0_pay3 (F := Ideal) Hb Wh bh) Hb (ix2 r q)
      = cell x h Wirz birz Whrz bhrz Win bin Whn bhn (ix2 p q) := by
  rw [gateVec_apply]
  have e1 : (fun j => k0_pay2 (F := Ideal) X Wx bx (ix2 r (gcol j))) = proj x Wirz birz p := funext fun j => by
    rw [fused_apply]; unfold proj; rw [ebxg j]
    exact congrArg (· + birz (ix1 j)) (Finset.sum_congr rfl fun k _ => by rw [eX k, eWxg j k])
  have e2 : (fun j => k0_pay3 (F := Ideal) Hb Wh bh (ix2 r (gcol j))) = proj h Whrz bhrz p := funext fun j => by
    rw [fused_apply']; unfold proj; rw [ebhg j]
    exact congrArg (· + bhrz (ix1 j)) (Finset.sum_congr rfl fun k _ => by rw [eH k, eWhg j k])
  have e3 : (fun j => k0_pay2 (F := Ideal) X Wx bx (ix2 r (ccol j))) = proj x Win bin p := funext fun j => by
    rw [fused_apply]; unfold proj; rw [ebxc j]
    exact congrArg (· + bin (ix1 j)) (Finset.sum_congr rfl fun k _ => by rw [eX k, eWxc j k])
  have e4 : (fun j => k0_pay3 (F := Ideal) Hb Wh bh (ix2 r (ccol j))) = proj h Whn bhn p := funext fun j => by
    rw [fused_apply']; unfold proj; rw [ebhc j]
    exact congrArg (· + bhn (ix1 j)) (Finset.sum_congr rfl fun k _ => by rw [eH k, eWhc j k])
  rw [e1, e2, e3, e4, eH q]
  exact gate1_eq_gate2 _ _ _ _ _ _ (proj_real x Wirz birz hx hWirz hbirz p) (proj_real h Whrz bhrz hh hWhrz hbhrz p)
    (proj_real x Win bin hx hWin hbin p) (proj_real h Whn bhn hh hWhn hbhn p)

end Cert.Gru

end
-- ==== Proof.Blocks.lean ====
/-
  From the blocks to the array: after the kernel's run the result array is the cell of the argument arrays.

  The grid has 32 points; point `t` stages rows `256 t … 256 t + 255` of `x` and of `h`, the whole of the two fused
  weight arrays and of the two fused bias rows, and writes back rows `256 t … 256 t + 255` of the result. The fused
  arrays are written by the host before the launch: the gate weights stacked on the candidate weights (read at a row
  below 2048 the first, from row 2048 on the second, the offset taken off), and likewise the biases, reshaped to one
  row. So entry `(r, q)` of what point `t` writes back is the cell's entry `(256 t + r, q)` (`point_eq`), the 32
  blocks cover the array (row `i` lies in block `i / 256`), and the array after the run is the cell, whole.
-/
import proofs.«163678_j64982855188492_2_alg».proof.Proof.ValueBlocks
import proofs.«163678_j64982855188492_2_alg».proof.Proof.Point
import Idealize.ShloMosaic.Lib.StableHlo.Run

noncomputable section

namespace Cert.Gru

open Idealize.ShloMosaic Idealize.ShloMosaic.TcCoe Idealize.SL.Sem Idealize.ShloMosaic.ValueIdx Cert.KernelIdeal Cert.KernelIdeal.Gen
  Cert.RowNorm
open Idealize.ShloMosaic.Pipeline (Dat)

variable (m : (ℓ : Loc nD τ sig) → Buf (Elt Ideal) ℓ) (ρ : Dev nD → PrngReg)

/-- The ten argument arrays on core `c`, as functions of their indices. -/
abbrev A0 (c : Dev nD) : S8192x1024.Idx → EReal := m ((c : Thread nD τ).loc main_arg0)
abbrev A1 (c : Dev nD) : S8192x1024.Idx → EReal := m ((c : Thread nD τ).loc main_arg1)
abbrev A2 (c : Dev nD) : S2048x1024.Idx → EReal := m ((c : Thread nD τ).loc main_arg2)
abbrev A3 (c : Dev nD) : S2048.Idx → EReal := m ((c : Thread nD τ).loc main_arg3)
abbrev A4 (c : Dev nD) : S2048x1024.Idx → EReal := m ((c : Thread nD τ).loc main_arg4)
abbrev A5 (c : Dev nD) : S2048.Idx → EReal := m ((c : Thread nD τ).loc main_arg5)
abbrev A6 (c : Dev nD) : S1024x1024.Idx → EReal := m ((c : Thread nD τ).loc main_arg6)
abbrev A7 (c : Dev nD) : S1024.Idx → EReal := m ((c : Thread nD τ).loc main_arg7)
abbrev A8 (c : Dev nD) : S1024x1024.Idx → EReal := m ((c : Thread nD τ).loc main_arg8)
abbrev A9 (c : Dev nD) : S1024.Idx → EReal := m ((c : Thread nD τ).loc main_arg9)

/-- Every entry of every argument array on core `c` is a real. -/
def ArgsReal (c : Dev nD) : Prop :=
  Real' (A0 m c) ∧ Real' (A1 m c) ∧ Real' (A2 m c) ∧ Real' (A3 m c) ∧ Real' (A4 m c) ∧ Real' (A5 m c) ∧ Real' (A6 m c)
    ∧ Real' (A7 m c) ∧ Real' (A8 m c) ∧ Real' (A9 m c)

theorem hz : (![0, 0] : Fin 2 → Nat) = fun _ => 0 := funext fun a => by fin_cases a <;> rfl

/-- The printed index maps, decided over the 32 points: the three row-blocked windows sit at block `(t, 0)`, the four
    whole-array windows at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## The arrays the host writes before the launch -/

theorem V_v1 (c : Dev nD) : (V m c main_v1 : S3072x1024.Idx → EReal) =
    truncf (F := Ideal) .bf16 (concatenate S3072x1024 0 [⟨S2048x1024, A2 m c⟩, ⟨S1024x1024, A6 m c⟩]
      concatenates_S2048x1024_S1024x1024_S3072x1024_d0) bitsLt_bf16_f32 := by
  dsimp only [Gen.V, Gen.hostOps0]
  after_results

theorem V_v3 (c : Dev nD) : (V m c main_v3 : S3072x1024.Idx → EReal) =
    truncf (F := Ideal) .bf16 (concatenate S3072x1024 0 [⟨S2048x1024, A4 m c⟩, ⟨S1024x1024, A8 m c⟩]
      concatenates_S2048x1024_S1024x1024_S3072x1024_d0) bitsLt_bf16_f32 := by
  dsimp only [Gen.V, Gen.hostOps0]
  after_results

theorem V_v5 (c : Dev nD) : (V m c main_v5 : S1x3072.Idx → EReal) =
    shapeCast S1x3072 (concatenate S3072 0 [⟨S2048, A3 m c⟩, ⟨S1024, A7 m c⟩] concatenates_S2048_S1024_S3072_d0)
      shapeCasts_S3072_S1x3072 := by
  dsimp only [Gen.V, Gen.hostOps0]
  after_results
  rfl

theorem V_v7 (c : Dev nD) : (V m c main_v7 : S1x3072.Idx → EReal) =
    shapeCast S1x3072 (concatenate S3072 0 [⟨S2048, A5 m c⟩, ⟨S1024, A9 m c⟩] concatenates_S2048_S1024_S3072_d0)
      shapeCasts_S3072_S1x3072 := by
  dsimp only [Gen.V, Gen.hostOps0]
  after_results
  rfl

/-- A stack of two matrices, read in its first part and in its second. -/
theorem stack2_left {a b n T : ℕ} (x₁ : (⟨2, ![a, n]⟩ : Shape).Idx → EReal) (x₂ : (⟨2, ![b, n]⟩ : Shape).Idx → EReal)
    (h : Shape.Concatenates [⟨2, ![a, n]⟩, ⟨2, ![b, n]⟩] ⟨2, ![T, n]⟩ 0) (j : Fin a) (j' : Fin T) (hj : j'.val = j.val) (k : Fin n) :
    concatenate ⟨2, ![T, n]⟩ 0 [⟨⟨2, ![a, n]⟩, x₁⟩, ⟨⟨2, ![b, n]⟩, x₂⟩] h (ix2 j' k) = x₁ (ix2 j k) :=
  concatenate_pair_apply_left 0 x₁ x₂ h (ix2 j' k) rfl (ix2 j k) fun d => by
    match d with
    | ⟨0, _⟩ => exact hj.symm
    | ⟨1, _⟩ => rfl

theorem stack2_right {a b n T : ℕ} (x₁ : (⟨2, ![a, n]⟩ : Shape).Idx → EReal) (x₂ : (⟨2, ![b, n]⟩ : Shape).Idx → EReal)
    (h : Shape.Concatenates [⟨2, ![a, n]⟩, ⟨2, ![b, n]⟩] ⟨2, ![T, n]⟩ 0) (j : Fin b) (j' : Fin T) (hj : j'.val = a + j.val) (k : Fin n) :
    concatenate ⟨2, ![T, n]⟩ 0 [⟨⟨2, ![a, n]⟩, x₁⟩, ⟨⟨2, ![b, n]⟩, x₂⟩] h (ix2 j' k) = x₂ (ix2 j k) :=
  concatenate_pair_apply_right 0 x₁ x₂ h (ix2 j' k) rfl rfl (ix2 j k)
    (fun d hd => by
      match d with
      | ⟨0, _⟩ => exact absurd rfl hd
      | ⟨1, _⟩ => rfl)
    (by show j.val + a = j'.val; omega)

/-- A stack of two vectors, read in its first part and in its second. -/
theorem stack1_left {a b T : ℕ} (x₁ : (⟨1, ![a]⟩ : Shape).Idx → EReal) (x₂ : (⟨1, ![b]⟩ : Shape).Idx → EReal)
    (h : Shape.Concatenates [⟨1, ![a]⟩, ⟨1, ![b]⟩] ⟨1, ![T]⟩ 0) (j : Fin a) (j' : Fin T) (hj : j'.val = j.val) :
    concatenate ⟨1, ![T]⟩ 0 [⟨⟨1, ![a]⟩, x₁⟩, ⟨⟨1, ![b]⟩, x₂⟩] h (ix1 j') = x₁ (ix1 j) :=
  concatenate_pair_apply_left 0 x₁ x₂ h (ix1 j') rfl (ix1 j) fun d => by
    match d with
    | ⟨0, _⟩ => exact hj.symm

theorem stack1_right {a b T : ℕ} (x₁ : (⟨1, ![a]⟩ : Shape).Idx → EReal) (x₂ : (⟨1, ![b]⟩ : Shape).Idx → EReal)
    (h : Shape.Concatenates [⟨1, ![a]⟩, ⟨1, ![b]⟩] ⟨1, ![T]⟩ 0) (j : Fin b) (j' : Fin T) (hj : j'.val = a + j.val) :
    concatenate ⟨1, ![T]⟩ 0 [⟨⟨1, ![a]⟩, x₁⟩, ⟨⟨1, ![b]⟩, x₂⟩] h (ix1 j') = x₂ (ix1 j) :=
  concatenate_pair_apply_right 0 x₁ x₂ h (ix1 j') rfl rfl (ix1 j)
    (fun d hd => by
      match d with
      | ⟨0, _⟩ => exact absurd rfl hd)
    (by show j.val + a = j'.val; omega)

/-! ## The windows' blocks, read off the arrays -/

theorem xblk_apply (c : Dev nD) (t : Fin cfg0.N) (r : Fin 256) (k : Fin 1024) (p : Fin 8192) (hp : p.val = t.val * 256 + r.val) :
    (iblk m c 0 t : Vec Ideal S256x1024 .f32) (ix2 r k) = A0 m c (ix2 p k) := by
  obtain ⟨h0, h1, -⟩ := idx_facts t
  unfold iblk
  rw [View.read_apply]
  show V m c main_arg0 _ = _
  rw [V_main_arg0]
  refine congrArg (A0 m c) (funext fun a => Fin.ext ?_)
  match a with
  | ⟨0, _⟩ => show win0_0.index t (0 : Fin 2) * 256 + 1 * r.val = p.val; rw [h0, hp]; omega
  | ⟨1, _⟩ => show win0_0.index t (1 : Fin 2) * 1024 + 1 * k.val = k.val; rw [h1]; omega

theorem hblk_apply (c : Dev nD) (t : Fin cfg0.N) (r : Fin 256) (k : Fin 1024) (p : Fin 8192) (hp : p.val = t.val * 256 + r.val) :
    (iblk m c 1 t : Vec Ideal S256x1024 .f32) (ix2 r k) = A1 m c (ix2 p k) := by
  obtain ⟨-, -, h0, h1, -⟩ := idx_facts t
  unfold iblk
  rw [View.read_apply]
  show V m c main_arg1 _ = _
  rw [V_main_arg1]
  refine congrArg (A1 m c) (funext fun a => Fin.ext ?_)
  match a with
  | ⟨0, _⟩ => show win0_1.index t (0 : Fin 2) * 256 + 1 * r.val = p.val; rw [h0, hp]; omega
  | ⟨1, _⟩ => show win0_1.index t (1 : Fin 2) * 1024 + 1 * k.val = k.val; rw [h1]; omega

theorem wxblk_apply (c : Dev nD) (t : Fin cfg0.N) (j : Fin 3072) (k : Fin 1024) :
    (iblk m c 2 t : Vec Ideal S3072x1024 .bf16) (ix2 j k) = (V m c main_v1 : S3072x1024.Idx → EReal) (ix2 j k) := by
  obtain ⟨-, -, -, -, h0, h1, -⟩ := idx_facts t
  unfold iblk
  rw [View.read_apply]
  show (V m c main_v1 : S3072x1024.Idx → EReal) _ = _
  refine congrArg (V m c main_v1 : S3072x1024.Idx → EReal) (funext fun a => Fin.ext ?_)
  match a with
  | ⟨0, _⟩ => show win0_2.index t (0 : Fin 2) * 3072 + 1 * j.val = j.val; rw [h0]; omega
  | ⟨1, _⟩ => show win0_2.index t (1 : Fin 2) * 1024 + 1 * k.val = k.val; rw [h1]; omega

theorem bxblk_apply (c : Dev nD) (t : Fin cfg0.N) (j : Fin 1) (k : Fin 3072) :
    (iblk m c 3 t : Vec Ideal S1x3072 .f32) (ix2 j k) = (V m c main_v5 : S1x3072.Idx → EReal) (ix2 j k) := by
  obtain ⟨-, -, -, -, -, -, h0, h1, -⟩ := idx_facts t
  unfold iblk
  rw [View.read_apply]
  show (V m c main_v5 : S1x3072.Idx → EReal) _ = _
  refine congrArg (V m c main_v5 : S1x3072.Idx → EReal) (funext fun a => Fin.ext ?_)
  match a with
  | ⟨0, _⟩ => show win0_3.index t (0 : Fin 2) * 1 + 1 * j.val = j.val; rw [h0]; omega
  | ⟨1, _⟩ => show win0_3.index t (1 : Fin 2) * 3072 + 1 * k.val = k.val; rw [h1]; omega

theorem whblk_apply (c : Dev nD) (t : Fin cfg0.N) (j : Fin 3072) (k : Fin 1024) :
    (iblk m c 4 t : Vec Ideal S3072x1024 .bf16) (ix2 j k) = (V m c main_v3 : S3072x1024.Idx → EReal) (ix2 j k) := by
  obtain ⟨-, -, -, -, -, -, -, -, h0, h1, -⟩ := idx_facts t
  unfold iblk
  rw [View.read_apply]
  show (V m c main_v3 : S3072x1024.Idx → EReal) _ = _
  refine congrArg (V m c main_v3 : S3072x1024.Idx → EReal) (funext fun a => Fin.ext ?_)
  match a with
  | ⟨0, _⟩ => show win0_4.index t (0 : Fin 2) * 3072 + 1 * j.val = j.val; rw [h0]; omega
  | ⟨1, _⟩ => show win0_4.index t (1 : Fin 2) * 1024 + 1 * k.val = k.val; rw [h1]; omega

theorem bhblk_apply (c : Dev nD) (t : Fin cfg0.N) (j : Fin 1) (k : Fin 3072) :
    (iblk m c 5 t : Vec Ideal S1x3072 .f32) (ix2 j k) = (V m c main_v7 : S1x3072.Idx → EReal) (ix2 j k) := by
  obtain ⟨-, -, -, -, -, -, -, -, -, -, h0, h1, -⟩ := idx_facts t
  unfold iblk
  rw [View.read_apply]
  show (V m c main_v7 : S1x3072.Idx → EReal) _ = _
  refine congrArg (V m c main_v7 : S1x3072.Idx → EReal) (funext fun a => Fin.ext ?_)
  match a with
  | ⟨0, _⟩ => show win0_5.index t (0 : Fin 2) * 1 + 1 * j.val = j.val; rw [h0]; omega
  | ⟨1, _⟩ => show win0_5.index t (1 : Fin 2) * 3072 + 1 * k.val = k.val; rw [h1]; omega

/-- The fused weight and bias blocks, read in their gate part and in their candidate part. -/
theorem wx_gate (c : Dev nD) (t : Fin cfg0.N) (j : Fin 2048) (k : Fin 1024) :
    (iblk m c 2 t : Vec Ideal S3072x1024 .bf16) (ix2 (gcol j) k) = A2 m c (ix2 j k) := by
  rw [wxblk_apply, V_v1]
  exact stack2_left (A2 m c) (A6 m c) concatenates_S2048x1024_S1024x1024_S3072x1024_d0 j (gcol j) (Nat.zero_add _) k
theorem wx_cand (c : Dev nD) (t : Fin cfg0.N) (j : Fin 1024) (k : Fin 1024) :
    (iblk m c 2 t : Vec Ideal S3072x1024 .bf16) (ix2 (ccol j) k) = A6 m c (ix2 j k) := by
  rw [wxblk_apply, V_v1]
  exact stack2_right (A2 m c) (A6 m c) concatenates_S2048x1024_S1024x1024_S3072x1024_d0 j (ccol j) rfl k
theorem wh_gate (c : Dev nD) (t : Fin cfg0.N) (j : Fin 2048) (k : Fin 1024) :
    (iblk m c 4 t : Vec Ideal S3072x1024 .bf16) (ix2 (gcol j) k) = A4 m c (ix2 j k) := by
  rw [whblk_apply, V_v3]
  exact stack2_left (A4 m c) (A8 m c) concatenates_S2048x1024_S1024x1024_S3072x1024_d0 j (gcol j) (Nat.zero_add _) k
theorem wh_cand (c : Dev nD) (t : Fin cfg0.N) (j : Fin 1024) (k : Fin 1024) :
    (iblk m c 4 t : Vec Ideal S3072x1024 .bf16) (ix2 (ccol j) k) = A8 m c (ix2 j k) := by
  rw [whblk_apply, V_v3]
  exact stack2_right (A4 m c) (A8 m c) concatenates_S2048x1024_S1024x1024_S3072x1024_d0 j (ccol j) rfl k
theorem bx_gate (c : Dev nD) (t : Fin cfg0.N) (j : Fin 2048) :
    (iblk m c 3 t : Vec Ideal S1x3072 .f32) (ix2 (0 : Fin 1) (gcol j)) = A3 m c (ix1 j) := by
  rw [bxblk_apply, V_v5, shapeCast_a_1a_apply]
  exact stack1_left (A3 m c) (A7 m c) concatenates_S2048_S1024_S3072_d0 j (gcol j) (Nat.zero_add _)
theorem bx_cand (c : Dev nD) (t : Fin cfg0.N) (j : Fin 1024) :
    (iblk m c 3 t : Vec Ideal S1x3072 .f32) (ix2 (0 : Fin 1) (ccol j)) = A7 m c (ix1 j) := by
  rw [bxblk_apply, V_v5, shapeCast_a_1a_apply]
  exact stack1_right (A3 m c) (A7 m c) concatenates_S2048_S1024_S3072_d0 j (ccol j) rfl
theorem bh_gate (c : Dev nD) (t : Fin cfg0.N) (j : Fin 2048) :
    (iblk m c 5 t : Vec Ideal S1x3072 .f32) (ix2 (0 : Fin 1) (gcol j)) = A5 m c (ix1 j) := by
  rw [bhblk_apply, V_v7, shapeCast_a_1a_apply]
  exact stack1_left (A5 m c) (A9 m c) concatenates_S2048_S1024_S3072_d0 j (gcol j) (Nat.zero_add _)
theorem bh_cand (c : Dev nD) (t : Fin cfg0.N) (j : Fin 1024) :
    (iblk m c 5 t : Vec Ideal S1x3072 .f32) (ix2 (0 : Fin 1) (ccol j)) = A9 m c (ix1 j) := by
  rw [bhblk_apply, V_v7, shapeCast_a_1a_apply]
  exact stack1_right (A5 m c) (A9 m c) concatenates_S2048_S1024_S3072_d0 j (ccol j) rfl

/-! ## What a point writes back, the cover, the array after the run -/

/-- WHAT POINT `t` WRITES BACK is block `t` of the cell of the argument arrays. -/
theorem flushed_eq (c : Dev nD) (hfin : ArgsReal m c) (t : Fin cfg0.N) :
    (dats m 0 c).flushed 6 t = ((cfg0.win 6).blk t).view.read (Elt Ideal) (cell (A0 m c) (A1 m c) (A2 m c) (A3 m c) (A4 m c) (A5 m c) (A6 m c) (A7 m c) (A8 m c) (A9 m c)) := by
  obtain ⟨f0, f1, f2, f3, f4, f5, f6, f7, f8, f9⟩ := hfin
  obtain ⟨-, -, -, -, -, -, -, -, -, -, -, -, h60, h61⟩ := idx_facts t
  have hN : cfg0.N = 32 := N_0
  rw [Cert.KernelIdeal.ValueP.flushed6]
  unfold out0_6
  rw [View.canon_unit_zero hz]
  simp only [View.ld_unit_zero (S := S256x1024) hz, View.ld_unit_zero (S := S3072x1024) hz, View.ld_unit_zero (S := S1x3072) hz]
  rw [payload_eq]
  funext y
  obtain ⟨r, q, rfl⟩ : ∃ (r : Fin 256) (q : Fin 1024), y = ix2 r q := ⟨y 0, y 1, eq_ix2 y⟩
  have ht : t.val < 32 := hN ▸ t.isLt
  have hemb : ((cfg0.win 6).blk t).view.emb (ix2 r q) = ix2 (⟨t.val * 256 + r.val, by omega⟩ : Fin 8192) q := funext fun a => Fin.ext (by
    match a with
    | ⟨0, _⟩ => show win0_6.index t (0 : Fin 2) * 256 + 1 * r.val = t.val * 256 + r.val; rw [h60]; omega
    | ⟨1, _⟩ => show win0_6.index t (1 : Fin 2) * 1024 + 1 * q.val = q.val; rw [h61]; omega)
  show gateVec (k0_pay2 (F := Ideal) (iblk m c 0 t) (iblk m c 2 t) (iblk m c 3 t)) (k0_pay3 (F := Ideal) (iblk m c 1 t) (iblk m c 4 t) (iblk m c 5 t))
      (iblk m c 1 t) (ix2 r q) = cell (A0 m c) (A1 m c) (A2 m c) (A3 m c) (A4 m c) (A5 m c) (A6 m c) (A7 m c) (A8 m c) (A9 m c) (((cfg0.win 6).blk t).view.emb (ix2 r q))
  rw [hemb]
  exact point_eq (A0 m c) (A1 m c) (A2 m c) (A3 m c) (A4 m c) (A5 m c) (A6 m c) (A7 m c) (A8 m c) (A9 m c)
    f0 f1 f2 f3 f4 f5 f6 f7 f8 f9 (iblk m c 0 t) (iblk m c 1 t) (iblk m c 2 t) (iblk m c 4 t) (iblk m c 3 t) (iblk m c 5 t)
    ⟨t.val * 256 + r.val, by omega⟩ r
    (fun k => xblk_apply m c t r k _ rfl) (fun k => hblk_apply m c t r k _ rfl)
    (fun j k => wx_gate m c t j k) (fun j k => wx_cand m c t j k) (fun j k => wh_gate m c t j k) (fun j k => wh_cand m c t j k)
    (fun j => bx_gate m c t j) (fun j => bx_cand m c t j) (fun j => bh_gate m c t j) (fun j => bh_cand m c t j) q

/-- An index of the array is in point `t`'s block iff each coordinate is in the block's range on its axis. -/
theorem mem_blk (t : Fin cfg0.N) (i : S8192x1024.Idx) :
    i ∈ ((cfg0.win 6).blk t).view.set ↔ ∀ a : Fin 2, win0_6.index t a * S256x1024.size a ≤ (i a).val
      ∧ (i a).val < win0_6.index t a * S256x1024.size a + S256x1024.size a := by
  show i ∈ ((View.whole main_v8).slice (win0_6.rect t)).set ↔ _
  rw [View.set_slice_whole, Rect.mem_set_unit]
  exact Iff.rfl

/-- Every index of the result array lies in some point's block: row `i` in block `i / 256`. -/
theorem cover (i : S8192x1024.Idx) : ∃ t : Fin cfg0.N, (cfg0.win 6).flush t = true ∧ i ∈ ((cfg0.win 6).blk t).view.set := by
  have hN : cfg0.N = 32 := N_0
  have hi0 : (i 0).val < 8192 := (i 0).isLt
  have hi1 : (i 1).val < 1024 := (i 1).isLt
  have hlt : (i 0).val / 256 < cfg0.N := by rw [hN]; omega
  obtain ⟨-, -, -, -, -, -, -, -, -, -, -, -, h60, h61⟩ := idx_facts ⟨(i 0).val / 256, hlt⟩
  refine ⟨⟨(i 0).val / 256, hlt⟩, flush0_6 _, ?_⟩
  rw [mem_blk]
  intro a
  match a with
  | ⟨0, _⟩ =>
    show win0_6.index ⟨(i 0).val / 256, hlt⟩ (0 : Fin 2) * 256 ≤ (i 0).val ∧ (i 0).val < win0_6.index ⟨(i 0).val / 256, hlt⟩ (0 : Fin 2) * 256 + 256
    rw [h60]; show (i 0).val / 256 * 256 ≤ (i 0).val ∧ (i 0).val < (i 0).val / 256 * 256 + 256; omega
  | ⟨1, _⟩ =>
    show win0_6.index ⟨(i 0).val / 256, hlt⟩ (1 : Fin 2) * 1024 ≤ (i 1).val ∧ (i 1).val < win0_6.index ⟨(i 0).val / 256, hlt⟩ (1 : Fin 2) * 1024 + 1024
    rw [h61]; omega

/-- THE ARRAY after the run is the cell of the argument arrays. -/
theorem final (c : Dev nD) (hfin : ArgsReal m c) : (dats m 0 c).arrAt 6 cfg0.N = cell (A0 m c) (A1 m c) (A2 m c) (A3 m c) (A4 m c) (A5 m c) (A6 m c) (A7 m c) (A8 m c) (A9 m c) :=
  (dats m 0 c).arrAt_eq_of_cover 6 (cell (A0 m c) (A1 m c) (A2 m c) (A3 m c) (A4 m c) (A5 m c) (A6 m c) (A7 m c) (A8 m c) (A9 m c)) (fun t _ => flushed_eq m c hfin t) cover

/-- The kernel's run, read: the result array at the cell of the arguments, the arguments unchanged. -/
theorem run (hfin : ∀ c, ArgsReal m c) :
    θ_run defs (onTc (τ := τ) (main (F := Ideal))) ⟨m, fun _ => 0, ρ⟩ fun r => ∀ c : Dev nD,
      r.2.mem ((c : Thread nD τ).loc main_v8) = cell (A0 m c) (A1 m c) (A2 m c) (A3 m c) (A4 m c) (A5 m c) (A6 m c) (A7 m c) (A8 m c) (A9 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c (hfin c)), (h c).2⟩)
    (Cert.KernelIdeal.ValueP.run_blocks m ρ)

end Cert.Gru

end
-- ==== Proof.RefLin.lean ====
/-
  The reference's four affine projections, read at an entry.

  The reference transposes each weight matrix and contracts the last axis of the activations with the first axis of the
  transpose; read at `(p, j)` that is the dot product of row `p` of the activations with row `j` of the weight
  matrix as given. The bias is broadcast over the rows, so the entry reads bias `j`.
-/
import proofs.«163678_j64982855188492_2_alg».proof.Proof.Gen.ReferenceIdeal.Read
import proofs.«163678_j64982855188492_2_alg».proof.Proof.Spec

noncomputable section

namespace Cert.Gru.Ref

open Idealize.ShloMosaic Idealize.ShloMosaic.ValueIdx Cert.ReferenceIdeal Cert.ReferenceIdeal.Gen Cert.ReferenceIdeal.Read Cert.Gru

/-- `lin_irz`: the reference's `x0 @ x2.T + x3`, read at an entry. -/
theorem lin_irz (x0 : (⟨S8192x1024, .f32⟩ : BufTy).Contents (Elt Ideal)) (x2 : (⟨S2048x1024, .f32⟩ : BufTy).Contents (Elt Ideal))
    (x3 : (⟨S2048, .f32⟩ : BufTy).Contents (Elt Ideal)) (i : S8192x2048.Idx) :
    val_main_v4 (F := Ideal) x0 x2 x3 i = proj x0 x2 x3 (i 0) (i 1) := by
  rw [val_main_v4_apply, val_main_v1_apply, val_main_v3_apply, val_main_v2_apply]
  simp only [val_main_v0_apply]
  unfold proj
  have e1 : ∀ k : Fin 1024, lidx_main_v1 i k = ix2 (i 0) k := fun k => funext fun a => by
    match a with
    | ⟨0, _⟩ => rfl
    | ⟨1, _⟩ => rfl
  have e2 : ∀ k : Fin 1024, idx_main_v0 (ridx_main_v1 i k) = ix2 (i 1) k := fun k => funext fun a => by
    match a with
    | ⟨0, _⟩ => rfl
    | ⟨1, _⟩ => rfl
  have e3 : idx_main_v2 (idx_main_v3 i) = ix1 (i 1) := funext fun a => by
    match a with
    | ⟨0, _⟩ => rfl
  simp only [e1, e2, e3]
  rfl

/-- `lin_hrz`: the reference's `x1 @ x4.T + x5`, read at an entry. -/
theorem lin_hrz (x1 : (⟨S8192x1024, .f32⟩ : BufTy).Contents (Elt Ideal)) (x4 : (⟨S2048x1024, .f32⟩ : BufTy).Contents (Elt Ideal))
    (x5 : (⟨S2048, .f32⟩ : BufTy).Contents (Elt Ideal)) (i : S8192x2048.Idx) :
    val_main_v27 (F := Ideal) x1 x4 x5 i = proj x1 x4 x5 (i 0) (i 1) := by
  rw [val_main_v27_apply, val_main_v24_apply, val_main_v26_apply, val_main_v25_apply]
  simp only [val_main_v23_apply]
  unfold proj
  have e1 : ∀ k : Fin 1024, lidx_main_v24 i k = ix2 (i 0) k := fun k => funext fun a => by
    match a with
    | ⟨0, _⟩ => rfl
    | ⟨1, _⟩ => rfl
  have e2 : ∀ k : Fin 1024, idx_main_v23 (ridx_main_v24 i k) = ix2 (i 1) k := fun k => funext fun a => by
    match a with
    | ⟨0, _⟩ => rfl
    | ⟨1, _⟩ => rfl
  have e3 : idx_main_v25 (idx_main_v26 i) = ix1 (i 1) := funext fun a => by
    match a with
    | ⟨0, _⟩ => rfl
  simp only [e1, e2, e3]
  rfl

/-- `lin_in`: the reference's `x0 @ x6.T + x7`, read at an entry. -/
theorem lin_in (x0 : (⟨S8192x1024, .f32⟩ : BufTy).Contents (Elt Ideal)) (x6 : (⟨S1024x1024, .f32⟩ : BufTy).Contents (Elt Ideal))
    (x7 : (⟨S1024, .f32⟩ : BufTy).Contents (Elt Ideal)) (i : S8192x1024.Idx) :
    val_main_v59 (F := Ideal) x0 x6 x7 i = proj x0 x6 x7 (i 0) (i 1) := by
  rw [val_main_v59_apply, val_main_v56_apply, val_main_v58_apply, val_main_v57_apply]
  simp only [val_main_v55_apply]
  unfold proj
  have e1 : ∀ k : Fin 1024, lidx_main_v56 i k = ix2 (i 0) k := fun k => funext fun a => by
    match a with
    | ⟨0, _⟩ => rfl
    | ⟨1, _⟩ => rfl
  have e2 : ∀ k : Fin 1024, idx_main_v55 (ridx_main_v56 i k) = ix2 (i 1) k := fun k => funext fun a => by
    match a with
    | ⟨0, _⟩ => rfl
    | ⟨1, _⟩ => rfl
  have e3 : idx_main_v57 (idx_main_v58 i) = ix1 (i 1) := funext fun a => by
    match a with
    | ⟨0, _⟩ => rfl
  simp only [e1, e2, e3]
  rfl

/-- `lin_hn`: the reference's `x1 @ x8.T + x9`, read at an entry. -/
theorem lin_hn (x1 : (⟨S8192x1024, .f32⟩ : BufTy).Contents (Elt Ideal)) (x8 : (⟨S1024x1024, .f32⟩ : BufTy).Contents (Elt Ideal))
    (x9 : (⟨S1024, .f32⟩ : BufTy).Contents (Elt Ideal)) (i : S8192x1024.Idx) :
    val_main_v82 (F := Ideal) x1 x8 x9 i = proj x1 x8 x9 (i 0) (i 1) := by
  rw [val_main_v82_apply, val_main_v79_apply, val_main_v81_apply, val_main_v80_apply]
  simp only [val_main_v78_apply]
  unfold proj
  have e1 : ∀ k : Fin 1024, lidx_main_v79 i k = ix2 (i 0) k := fun k => funext fun a => by
    match a with
    | ⟨0, _⟩ => rfl
    | ⟨1, _⟩ => rfl
  have e2 : ∀ k : Fin 1024, idx_main_v78 (ridx_main_v79 i k) = ix2 (i 1) k := fun k => funext fun a => by
    match a with
    | ⟨0, _⟩ => rfl
    | ⟨1, _⟩ => rfl
  have e3 : idx_main_v80 (idx_main_v81 i) = ix1 (i 1) := funext fun a => by
    match a with
    | ⟨0, _⟩ => rfl
  simp only [e1, e2, e3]
  rfl

end Cert.Gru.Ref

end
-- ==== Proof.RefNorm.lean ====
/-
  The reference's four row normalizations, read at an entry.

  Each is the two-pass form (`RowNorm.twoPass`): the row's mean (the host sum of the row from zero, over the row length),
  the mean of the squared deviations from it, and the deviation of the entry scaled by the reciprocal square root of that
  plus ε. Every broadcast between the row statistics and the entry reads the statistic of the entry's own row.
-/
import proofs.«163678_j64982855188492_2_alg».proof.Proof.Gen.ReferenceIdeal.Read
import proofs.«163678_j64982855188492_2_alg».proof.Proof.Spec

noncomputable section

namespace Cert.Gru.Ref

open Idealize.ShloMosaic Idealize.ShloMosaic.ValueIdx Cert.ReferenceIdeal Cert.ReferenceIdeal.Gen Cert.ReferenceIdeal.Read Cert.Gru
  Cert.RowNorm

/-- `norm_irz`: the reference's two-pass normalization of the projected row, read at an entry. -/
theorem norm_irz (x0 : (⟨S8192x1024, .f32⟩ : BufTy).Contents (Elt Ideal)) (x2 : (⟨S2048x1024, .f32⟩ : BufTy).Contents (Elt Ideal))
    (x3 : (⟨S2048, .f32⟩ : BufTy).Contents (Elt Ideal)) (p : Fin 8192) (j : Fin 2048) :
    val_main_v22 (F := Ideal) x0 x2 x3 (ix2 p j)
      = twoPass c2048 cEps (fun k => val_main_v4 (F := Ideal) x0 x2 x3 (ix2 p k)) j := by
  simp only [val_main_v22_apply, val_main_v17_apply, val_main_v21_apply, val_main_v20_apply, val_main_v19_apply, val_main_v18_apply,
    val_main_cst_3_apply, val_main_v16_apply, val_main_v15_apply, val_main_v14_apply, val_main_cst_2_apply, val_main_v13_apply,
    val_main_v12_apply, val_main_cst_1_apply, val_main_v11_apply, val_main_v10_apply, val_main_v9_apply, val_main_v8_apply,
    val_main_v7_apply, val_main_cst_0_apply, val_main_v6_apply, val_main_v5_apply, val_main_cst_apply]
  have e1 : ∀ k : Fin 2048, idx_main_v5 (idx_main_v6 (idx_main_v16 (ix2 p j))) k = ix2 p k := fun k => funext fun a => by
    match a with
    | ⟨0, _⟩ => rfl
    | ⟨1, _⟩ => rfl
  have e2 : ∀ k : Fin 2048, idx_main_v12 (idx_main_v13 (idx_main_v21 (ix2 p j))) k = ix2 p k := fun k => funext fun a => by
    match a with
    | ⟨0, _⟩ => rfl
    | ⟨1, _⟩ => rfl
  have e3 : ∀ k k' : Fin 2048, idx_main_v5 (idx_main_v6 (idx_main_v9 (ix2 p k))) k' = ix2 p k' := fun k k' => funext fun a => by
    match a with
    | ⟨0, _⟩ => rfl
    | ⟨1, _⟩ => rfl
  simp only [e2, e3, e1, Ideal.ofBits_def, Ideal.ofBits_zero_f32, zero_add]
  rfl

/-- `norm_hrz`: the reference's two-pass normalization of the projected row, read at an entry. -/
theorem norm_hrz (x1 : (⟨S8192x1024, .f32⟩ : BufTy).Contents (Elt Ideal)) (x4 : (⟨S2048x1024, .f32⟩ : BufTy).Contents (Elt Ideal))
    (x5 : (⟨S2048, .f32⟩ : BufTy).Contents (Elt Ideal)) (p : Fin 8192) (j : Fin 2048) :
    val_main_v45 (F := Ideal) x1 x4 x5 (ix2 p j)
      = twoPass c2048 cEps (fun k => val_main_v27 (F := Ideal) x1 x4 x5 (ix2 p k)) j := by
  simp only [val_main_v45_apply, val_main_v40_apply, val_main_v44_apply, val_main_v43_apply, val_main_v42_apply, val_main_v41_apply,
    val_main_cst_8_apply, val_main_v39_apply, val_main_v38_apply, val_main_v37_apply, val_main_cst_7_apply, val_main_v36_apply,
    val_main_v35_apply, val_main_cst_6_apply, val_main_v34_apply, val_main_v33_apply, val_main_v32_apply, val_main_v31_apply,
    val_main_v30_apply, val_main_cst_5_apply, val_main_v29_apply, val_main_v28_apply, val_main_cst_4_apply]
  have e1 : ∀ k : Fin 2048, idx_main_v28 (idx_main_v29 (idx_main_v39 (ix2 p j))) k = ix2 p k := fun k => funext fun a => by
    match a with
    | ⟨0, _⟩ => rfl
    | ⟨1, _⟩ => rfl
  have e2 : ∀ k : Fin 2048, idx_main_v35 (idx_main_v36 (idx_main_v44 (ix2 p j))) k = ix2 p k := fun k => funext fun a => by
    match a with
    | ⟨0, _⟩ => rfl
    | ⟨1, _⟩ => rfl
  have e3 : ∀ k k' : Fin 2048, idx_main_v28 (idx_main_v29 (idx_main_v32 (ix2 p k))) k' = ix2 p k' := fun k k' => funext fun a => by
    match a with
    | ⟨0, _⟩ => rfl
    | ⟨1, _⟩ => rfl
  simp only [e2, e3, e1, Ideal.ofBits_def, Ideal.ofBits_zero_f32, zero_add]
  rfl

/-- `norm_in`: the reference's two-pass normalization of the projected row, read at an entry. -/
theorem norm_in (x0 : (⟨S8192x1024, .f32⟩ : BufTy).Contents (Elt Ideal)) (x6 : (⟨S1024x1024, .f32⟩ : BufTy).Contents (Elt Ideal))
    (x7 : (⟨S1024, .f32⟩ : BufTy).Contents (Elt Ideal)) (p : Fin 8192) (j : Fin 1024) :
    val_main_v77 (F := Ideal) x0 x6 x7 (ix2 p j)
      = twoPass c1024 cEps (fun k => val_main_v59 (F := Ideal) x0 x6 x7 (ix2 p k)) j := by
  simp only [val_main_v77_apply, val_main_v72_apply, val_main_v76_apply, val_main_v75_apply, val_main_v74_apply, val_main_v73_apply,
    val_main_cst_15_apply, val_main_v71_apply, val_main_v70_apply, val_main_v69_apply, val_main_cst_14_apply, val_main_v68_apply,
    val_main_v67_apply, val_main_cst_13_apply, val_main_v66_apply, val_main_v65_apply, val_main_v64_apply, val_main_v63_apply,
    val_main_v62_apply, val_main_cst_12_apply, val_main_v61_apply, val_main_v60_apply, val_main_cst_11_apply]
  have e1 : ∀ k : Fin 1024, idx_main_v60 (idx_main_v61 (idx_main_v71 (ix2 p j))) k = ix2 p k := fun k => funext fun a => by
    match a with
    | ⟨0, _⟩ => rfl
    | ⟨1, _⟩ => rfl
  have e2 : ∀ k : Fin 1024, idx_main_v67 (idx_main_v68 (idx_main_v76 (ix2 p j))) k = ix2 p k := fun k => funext fun a => by
    match a with
    | ⟨0, _⟩ => rfl
    | ⟨1, _⟩ => rfl
  have e3 : ∀ k k' : Fin 1024, idx_main_v60 (idx_main_v61 (idx_main_v64 (ix2 p k))) k' = ix2 p k' := fun k k' => funext fun a => by
    match a with
    | ⟨0, _⟩ => rfl
    | ⟨1, _⟩ => rfl
  simp only [e2, e3, e1, Ideal.ofBits_def, Ideal.ofBits_zero_f32, zero_add]
  rfl

/-- `norm_hn`: the reference's two-pass normalization of the projected row, read at an entry. -/
theorem norm_hn (x1 : (⟨S8192x1024, .f32⟩ : BufTy).Contents (Elt Ideal)) (x8 : (⟨S1024x1024, .f32⟩ : BufTy).Contents (Elt Ideal))
    (x9 : (⟨S1024, .f32⟩ : BufTy).Contents (Elt Ideal)) (p : Fin 8192) (j : Fin 1024) :
    val_main_v100 (F := Ideal) x1 x8 x9 (ix2 p j)
      = twoPass c1024 cEps (fun k => val_main_v82 (F := Ideal) x1 x8 x9 (ix2 p k)) j := by
  simp only [val_main_v100_apply, val_main_v95_apply, val_main_v99_apply, val_main_v98_apply, val_main_v97_apply, val_main_v96_apply,
    val_main_cst_20_apply, val_main_v94_apply, val_main_v93_apply, val_main_v92_apply, val_main_cst_19_apply, val_main_v91_apply,
    val_main_v90_apply, val_main_cst_18_apply, val_main_v89_apply, val_main_v88_apply, val_main_v87_apply, val_main_v86_apply,
    val_main_v85_apply, val_main_cst_17_apply, val_main_v84_apply, val_main_v83_apply, val_main_cst_16_apply]
  have e1 : ∀ k : Fin 1024, idx_main_v83 (idx_main_v84 (idx_main_v94 (ix2 p j))) k = ix2 p k := fun k => funext fun a => by
    match a with
    | ⟨0, _⟩ => rfl
    | ⟨1, _⟩ => rfl
  have e2 : ∀ k : Fin 1024, idx_main_v90 (idx_main_v91 (idx_main_v99 (ix2 p j))) k = ix2 p k := fun k => funext fun a => by
    match a with
    | ⟨0, _⟩ => rfl
    | ⟨1, _⟩ => rfl
  have e3 : ∀ k k' : Fin 1024, idx_main_v83 (idx_main_v84 (idx_main_v87 (ix2 p k))) k' = ix2 p k' := fun k k' => funext fun a => by
    match a with
    | ⟨0, _⟩ => rfl
    | ⟨1, _⟩ => rfl
  simp only [e2, e3, e1, Ideal.ofBits_def, Ideal.ofBits_zero_f32, zero_add]
  rfl

end Cert.Gru.Ref

end
-- ==== Proof.RefGate.lean ====
/-
  The reference's whole result is the cell.

  On top of its four normalized projections the reference spells the logistic as `1 / (1 + exp (-s))` on the whole
  2048-wide gate row and cuts the reset half (columns `q`) and the update half (columns `1024 + q`) out of it; the
  rest is the gate arithmetic as written. Entry by entry this is `Cert.Gru.cell`, whose logistic is the same quotient.
-/
import proofs.«163678_j64982855188492_2_alg».proof.Proof.RefLin
import proofs.«163678_j64982855188492_2_alg».proof.Proof.RefNorm

noncomputable section

namespace Cert.Gru.Ref

open Idealize.ShloMosaic Idealize.ShloMosaic.ValueIdx Cert.ReferenceIdeal Cert.ReferenceIdeal.Gen Cert.ReferenceIdeal.Read Cert.Gru
  Cert.RowNorm

theorem ref_eq (x0 x1 : (⟨S8192x1024, .f32⟩ : BufTy).Contents (Elt Ideal)) (x2 : (⟨S2048x1024, .f32⟩ : BufTy).Contents (Elt Ideal))
    (x3 : (⟨S2048, .f32⟩ : BufTy).Contents (Elt Ideal)) (x4 : (⟨S2048x1024, .f32⟩ : BufTy).Contents (Elt Ideal))
    (x5 : (⟨S2048, .f32⟩ : BufTy).Contents (Elt Ideal)) (x6 : (⟨S1024x1024, .f32⟩ : BufTy).Contents (Elt Ideal))
    (x7 : (⟨S1024, .f32⟩ : BufTy).Contents (Elt Ideal)) (x8 : (⟨S1024x1024, .f32⟩ : BufTy).Contents (Elt Ideal))
    (x9 : (⟨S1024, .f32⟩ : BufTy).Contents (Elt Ideal)) :
    val_main_v108 (F := Ideal) x0 x1 x2 x3 x4 x5 x6 x7 x8 x9 = cell x0 x1 x2 x3 x4 x5 x6 x7 x8 x9 := by
  funext i
  obtain ⟨p, q, rfl⟩ : ∃ (p : Fin 8192) (q : Fin 1024), i = ix2 p q := ⟨i 0, i 1, eq_ix2 i⟩
  simp only [val_main_v108_apply, val_main_v107_apply, val_main_v106_apply, val_main_v105_apply, val_main_v104_apply,
    val_main_cst_21_apply, val_main_v103_apply, val_main_v102_apply, val_main_v101_apply, val_main_v54_apply, val_main_v53_apply,
    val_main_v52_apply, val_main_v51_apply, val_main_cst_10_apply, val_main_v50_apply, val_main_v49_apply, val_main_cst_9_apply,
    val_main_v48_apply, val_main_v47_apply, val_main_v46_apply]
  have h53 : idx_main_v53 (ix2 p q) = ix2 p (lo q) := funext fun a => by
    match a with
    | ⟨0, _⟩ => rfl
    | ⟨1, _⟩ => rfl
  have h54 : idx_main_v54 (ix2 p q) = ix2 p (hi q) := funext fun a => by
    match a with
    | ⟨0, _⟩ => rfl
    | ⟨1, _⟩ => exact Fin.ext (Nat.add_comm _ _)
  have l1 : (fun k => val_main_v4 (F := Ideal) x0 x2 x3 (ix2 p k)) = proj x0 x2 x3 p := funext fun k => lin_irz x0 x2 x3 (ix2 p k)
  have l2 : (fun k => val_main_v27 (F := Ideal) x1 x4 x5 (ix2 p k)) = proj x1 x4 x5 p := funext fun k => lin_hrz x1 x4 x5 (ix2 p k)
  have l3 : (fun k => val_main_v59 (F := Ideal) x0 x6 x7 (ix2 p k)) = proj x0 x6 x7 p := funext fun k => lin_in x0 x6 x7 (ix2 p k)
  have l4 : (fun k => val_main_v82 (F := Ideal) x1 x8 x9 (ix2 p k)) = proj x1 x8 x9 p := funext fun k => lin_hn x1 x8 x9 (ix2 p k)
  have h1 : Ideal.ofBits .f32 0x3F800000#32 = (1 : EReal) := cOne_eq
  simp only [h53, h54, norm_irz, norm_hrz, norm_in, norm_hn, l1, l2, l3, l4]
  unfold cell gate2 gate
  simp only [Ideal.logistic, Ideal.ofBits_def, h1]
  rfl

end Cert.Gru.Ref

end
-- ==== Proof.Finite.lean ====
/-
  From the precondition to real entries.

  The precondition states, array by array, that every entry's absolute value is below `+∞`, and takes the conjunction
  over the ten arrays. On the extended reals `max x (-x) < ⊤` excludes both infinities, so every entry of every
  argument array is a real number.
-/
import proofs.«163678_j64982855188492_2_alg».proof.Pre_finite_inputs
import proofs.«163678_j64982855188492_2_alg».proof.Proof.Gen.Pre_finite_inputs
import proofs.«163678_j64982855188492_2_alg».proof.Proof.RowNorm
import Idealize.ShloMosaic.Lib.ReduceAll
import Idealize.ShloMosaic.Lib.ValueIdx

noncomputable section

namespace Cert.Gru

open Idealize.ShloMosaic Cert.RowNorm Cert.Pre_finite_inputs

instance : Subsingleton S_.Idx := ⟨fun a b => funext fun d => d.elim0⟩

/-- The pattern of `+∞`. -/
theorem inf_bits : Ideal.ofBits .f32 0x7F800000#32 = ⊤ := by
  simp [Ideal.ofBits, Ideal.ieee]

/-- An extended real whose absolute value compares below `+∞` is a real. -/
theorem real_of_abs_lt (x : EReal)
    (h : FloatOps.cmpf (F := Ideal) (φ := .f32) .olt (FloatOps.hostAbsf x) (Ideal.ofBits .f32 0x7F800000#32) = 1#1) :
    ∃ r : ℝ, x = (r : EReal) := by
  rw [inf_bits] at h
  induction x using EReal.rec with
  | bot => exact absurd h (by show ¬ BitVec.ofBool (decide (max (⊥ : EReal) (-⊥) < ⊤)) = 1#1; simp)
  | coe r => exact ⟨r, rfl⟩
  | top => exact absurd h (by show ¬ BitVec.ofBool (decide (max (⊤ : EReal) (-⊤) < ⊤)) = 1#1; simp)

/-- Under the precondition every entry of every argument array is a real. -/
theorem real_of_pre (a0 a1 : FVec Ideal S8192x1024 .f32) (a2 : FVec Ideal S2048x1024 .f32) (a3 : FVec Ideal S2048 .f32)
    (a4 : FVec Ideal S2048x1024 .f32) (a5 : FVec Ideal S2048 .f32) (a6 : FVec Ideal S1024x1024 .f32) (a7 : FVec Ideal S1024 .f32)
    (a8 : FVec Ideal S1024x1024 .f32) (a9 : FVec Ideal S1024 .f32)
    (h : fn (F := Ideal) a0 a1 a2 a3 a4 a5 a6 a7 a8 a9 = fun _ => 1#1) :
    Real' a0 ∧ Real' a1 ∧ Real' a2 ∧ Real' a3 ∧ Real' a4 ∧ Real' a5 ∧ Real' a6 ∧ Real' a7 ∧ Real' a8 ∧ Real' a9 := by
  have h0 := congrFun h ValueIdx.ix0
  dsimp only [fn, fn_part1, fn_part2] at h0
  simp only [andi, IntOp.andi_eq_one] at h0
  obtain ⟨⟨⟨⟨⟨⟨⟨⟨⟨e0, e1⟩, e2⟩, e3⟩, e4⟩, e5⟩, e6⟩, e7⟩, e8⟩, e9⟩ := h0
  exact ⟨fun i => real_of_abs_lt _ (Host.reduce_andi_all _ _ _ _ _ e0 i), fun i => real_of_abs_lt _ (Host.reduce_andi_all _ _ _ _ _ e1 i),
    fun i => real_of_abs_lt _ (Host.reduce_andi_all _ _ _ _ _ e2 i), fun i => real_of_abs_lt _ (Host.reduce_andi_all _ _ _ _ _ e3 i),
    fun i => real_of_abs_lt _ (Host.reduce_andi_all _ _ _ _ _ e4 i), fun i => real_of_abs_lt _ (Host.reduce_andi_all _ _ _ _ _ e5 i),
    fun i => real_of_abs_lt _ (Host.reduce_andi_all _ _ _ _ _ e6 i), fun i => real_of_abs_lt _ (Host.reduce_andi_all _ _ _ _ _ e7 i),
    fun i => real_of_abs_lt _ (Host.reduce_andi_all _ _ _ _ _ e8 i), fun i => real_of_abs_lt _ (Host.reduce_andi_all _ _ _ _ _ e9 i)⟩

end Cert.Gru

end
-- ==== Proof.lean ====
/-
  One step of a layer-normalized GRU cell on 8192 rows: the kernel against its reference, on the extended reals.

  Both programs compute, for row `p` and column `q`,
      r = σ(LN(x W_irzᵀ + b_irz)[q] + LN(h W_hrzᵀ + b_hrz)[q]),   z = the same at column 1024 + q,
      n = tanh(LN(x W_inᵀ + b_in)[q] + r · LN(h W_hnᵀ + b_hn)[q]),   out = (1 - z) · n + z · h[p, q],
  with LN the normalization of a row by its mean and variance (plus ε, no affine part). They differ in three ways,
  none of which changes a value at the ideal instance on finite inputs:
  * the kernel stacks the gate weights on the candidate weights (and the biases likewise) and makes one product of 3072
    columns where the reference makes two, then cuts the columns apart; a stack read below the seam is its first part,
    from the seam on its second (`Blocks`, `KernelProj`, `KernelGate`);
  * the kernel rounds the operands of its products to a shorter format, which is the identity on the extended reals;
  * the kernel takes the variance in one pass, as the mean of squares less the squared mean, floored at zero, where
    the reference takes the mean of squared deviations. On REAL entries the two are equal and non-negative
    (`RowNorm.onePass_eq_twoPass`); with an infinite entry they need not be, so this is where the precondition — every
    input entry finite (`Finite`) — is used: the projections of real data are real (`Spec.proj_real`).
  The reference's own text is read entry by entry in `RefLin`, `RefNorm`, `RefGate`; the kernel's 32 blocks are
  assembled into the whole result array in `Blocks`. Both results are the one function `Cert.Gru.cell` of the ten
  argument arrays. The frames are the generated ones (the reference's is its generated run with the result dropped),
  and nothing was rewritten on the way to the idealized kernel, so there is nothing to preserve.
-/
import proofs.«163678_j64982855188492_2_alg».proof.Defs
import proofs.«163678_j64982855188492_2_alg».proof.Proof.Gen.Kernel
import proofs.«163678_j64982855188492_2_alg».proof.Proof.Gen.Kernel.Skeleton
import proofs.«163678_j64982855188492_2_alg».proof.Proof.Gen.Kernel.Launch
import proofs.«163678_j64982855188492_2_alg».proof.Proof.Gen.Kernel.Points
import proofs.«163678_j64982855188492_2_alg».proof.Proof.Gen.Kernel.Frame
import proofs.«163678_j64982855188492_2_alg».proof.Proof.Gen.KernelIdeal
import proofs.«163678_j64982855188492_2_alg».proof.Proof.Gen.KernelIdeal.Skeleton
import proofs.«163678_j64982855188492_2_alg».proof.Proof.Gen.KernelIdeal.Launch
import proofs.«163678_j64982855188492_2_alg».proof.Proof.Gen.KernelIdeal.Points
import proofs.«163678_j64982855188492_2_alg».proof.Proof.Gen.KernelIdeal.Frame
import proofs.«163678_j64982855188492_2_alg».proof.Proof.Gen.ReferenceIdeal
import proofs.«163678_j64982855188492_2_alg».proof.Proof.Gen.Pre_finite_inputs
import proofs.«163678_j64982855188492_2_alg».proof.Proof.Gen.ReferenceIdeal.Run
import proofs.«163678_j64982855188492_2_alg».proof.Proof.Gen.ReferenceIdeal.Read
import proofs.«163678_j64982855188492_2_alg».proof.Proof.Blocks
import proofs.«163678_j64982855188492_2_alg».proof.Proof.RefGate
import proofs.«163678_j64982855188492_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference launches no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text read at the ideal instance. -/
theorem preserves : Cert.preserves_Kernel_KernelIdeal := trivial

/-- Both programs end with the result array at the cell of the (agreeing, finite) argument arrays. -/
theorem algebraic : Cert.algebraic_KernelIdeal_ReferenceIdeal := by
  intro m ρ m' ρ' hpre hagree
  have hfin : ∀ c, Cert.Gru.ArgsReal m c := fun c => Cert.Gru.real_of_pre _ _ _ _ _ _ _ _ _ _ (hpre c)
  refine ⟨fun c => Cert.Gru.cell (Cert.Gru.A0 m c) (Cert.Gru.A1 m c) (Cert.Gru.A2 m c) (Cert.Gru.A3 m c) (Cert.Gru.A4 m c) (Cert.Gru.A5 m c) (Cert.Gru.A6 m c) (Cert.Gru.A7 m c) (Cert.Gru.A8 m c) (Cert.Gru.A9 m c), Cert.Gru.run m ρ hfin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v108_eq, Cert.Gru.Ref.ref_eq]
  obtain ⟨a0, a1, a2, a3, a4, a5, a6, a7, a8, a9⟩ := hagree c
  rw [a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
